-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x20000 : Shape := ⟨2, ![128, 20000]⟩
abbrev S20000x4096 : Shape := ⟨2, ![20000, 4096]⟩
abbrev S4096 : Shape := ⟨1, ![4096]⟩
abbrev S4096x1 : Shape := ⟨2, ![4096, 1]⟩
abbrev S1 : Shape := ⟨1, ![1]⟩
abbrev S_ : Shape := ⟨0, ![]⟩

class Facts : Prop where
  bcast_S_S128x20000 : S_.BroadcastsInDim S128x20000 (![] : Fin 0 → Fin S128x20000.rank)
  reducesTo_S128x20000_S_d0_1 : S128x20000.ReducesTo [0, 1] S_
  h_S_ : 0 < S_.numel
  bcast_S_S20000x4096 : S_.BroadcastsInDim S20000x4096 (![] : Fin 0 → Fin S20000x4096.rank)
  reducesTo_S20000x4096_S_d0_1 : S20000x4096.ReducesTo [0, 1] S_
  bcast_S_S4096 : S_.BroadcastsInDim S4096 (![] : Fin 0 → Fin S4096.rank)
  reducesTo_S4096_S_d0 : S4096.ReducesTo [0] S_
  bcast_S_S4096x1 : S_.BroadcastsInDim S4096x1 (![] : Fin 0 → Fin S4096x1.rank)
  reducesTo_S4096x1_S_d0_1 : S4096x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S4096 .f32) (main_arg8 : FVec F S4096x1 .f32) (main_arg9 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S20000x4096 .f32) (main_arg5 : FVec F S4096 .f32) (main_arg6 : FVec F S4096 .f32) (main_arg7 : FVec F S4096 .f32) (main_arg8 : FVec F S4096x1 .f32) (main_arg9 : FVec F S1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S20000x4096 .f32 := Host.absf main_arg4
  let main_cst_6 : FVec F S_ .f32 := constant S_ .f32 0x7F800000#32
  let main_v20 : FVec F S20000x4096 .f32 := broadcastInDim S20000x4096 ![] bcast_S_S20000x4096 main_cst_6
  let main_v21 : IVec S20000x4096 1 := cmpf .olt main_v19 main_v20
  let main_c_7 : IVec S_ 1 := constantI S_ 1 1#1
  let main_v22 : IVec S_ 1 := (fun x v => Host.reduce IntOp.andi x v reducesTo_S20000x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S128x20000 .f32) (main_arg1 : FVec F S20000x4096 .f32) (main_arg2 : FVec F S20000x4096 .f32) (main_arg3 : FVec F S4096 .f32) (main_arg4 : FVec F S20000x4096 .f32) (main_arg5 : FVec F S4096 .f32) (main_arg6 : FVec F S4096 .f32) (main_arg7 : FVec F S4096 .f32) (main_arg8 : FVec F S4096x1 .f32) (main_arg9 : FVec F S1 .f32) : IVec S_ 1 :=
  let main_v0 : FVec F S128x20000 .f32 := Host.absf main_arg0
  let main_cst : FVec F S_ .f32 := constant S_ .f32 0x7F800000#32
  let main_v1 : FVec F S128x20000 .f32 := broadcastInDim S128x20000 ![] bcast_S_S128x20000 main_cst
  let main_v2 : IVec S128x20000 1 := cmpf .olt main_v0 main_v1
  let main_c : IVec S_ 1 := constantI S_ 1 1#1
  let main_v3 : IVec S_ 1 := (fun x v => Host.reduce IntOp.andi x v reducesTo_S128x20000_S_d0_1 h_S_) main_v2 main_c
  let main_v4 : FVec F S20000x4096 .f32 := Host.absf main_arg1
  let main_cst_0 : FVec F S_ .f32 := constant S_ .f32 0x7F800000#32
  let main_v5 : FVec F S20000x4096 .f32 := broadcastInDim S20000x4096 ![] bcast_S_S20000x4096 main_cst_0
  let main_v6 : IVec S20000x4096 1 := cmpf .olt main_v4 main_v5
  let main_c_1 : IVec S_ 1 := constantI S_ 1 1#1
  let main_v7 : IVec S_ 1 := (fun x v => Host.reduce IntOp.andi x v reducesTo_S20000x4096_S_d0_1 h_S_) main_v6 main_c_1
  let main_v8 : IVec S_ 1 := andi main_v3 main_v7
  let main_v9 : FVec F S20000x4096 .f32 := Host.absf main_arg2
  let main_cst_2 : FVec F S_ .f32 := constant S_ .f32 0x7F800000#32
  let main_v10 : FVec F S20000x4096 .f32 := broadcastInDim S20000x4096 ![] bcast_S_S20000x4096 main_cst_2
  let main_v11 : IVec S20000x4096 1 := cmpf .olt main_v9 main_v10
  let main_c_3 : IVec S_ 1 := constantI S_ 1 1#1
  let main_v12 : IVec S_ 1 := (fun x v => Host.reduce IntOp.andi x v reducesTo_S20000x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S128x20000 : Shape := ⟨2, ![128, 20000]⟩
abbrev S20000x4096 : Shape := ⟨2, ![20000, 4096]⟩
abbrev S4096 : Shape := ⟨1, ![4096]⟩
abbrev S4096x1 : Shape := ⟨2, ![4096, 1]⟩
abbrev S1 : Shape := ⟨1, ![1]⟩
abbrev S20000x128 : Shape := ⟨2, ![20000, 128]⟩
abbrev S1x4096 : Shape := ⟨2, ![1, 4096]⟩
abbrev S128x4096 : Shape := ⟨2, ![128, 4096]⟩
abbrev S2000x512 : Shape := ⟨2, ![2000, 512]⟩
abbrev S1x512 : Shape := ⟨2, ![1, 512]⟩
abbrev S128x512 : Shape := ⟨2, ![128, 512]⟩
abbrev S2000x128 : Shape := ⟨2, ![2000, 128]⟩
abbrev S512 : Shape := ⟨1, ![512]⟩
abbrev S128x1 : Shape := ⟨2, ![128, 1]⟩
abbrev S1x1 : Shape := ⟨2, ![1, 1]⟩

abbrev nBuf : Space → Nat
  | .hbm => 21
  | .vmem => 21
  | .smem => 0
  | _ => 0

abbrev bufTy : (tb : Table) → Fin (tcTables nBuf tb) → BufTy
  | .hbm, ⟨0, _⟩ => ⟨S128x20000, .f32⟩
  | .hbm, ⟨1, _⟩ => ⟨S20000x4096, .f32⟩
  | .hbm, ⟨2, _⟩ => ⟨S20000x4096, .f32⟩
  | .hbm, ⟨3, _⟩ => ⟨S4096, .f32⟩
  | .hbm, ⟨4, _⟩ => ⟨S20000x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S1, .f32⟩
  | .hbm, ⟨10, _⟩ => ⟨S20000x128, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S128x4096, .f32⟩
  | .hbm, ⟨16, _⟩ => ⟨S128x4096, .f32⟩
  | .hbm, ⟨17, _⟩ => ⟨S128x1, .f32⟩
  | .hbm, ⟨18, _⟩ => ⟨S1x1, .f32⟩
  | .hbm, ⟨19, _⟩ => ⟨S128x1, .f32⟩
  | .hbm, ⟨20, _⟩ => ⟨S128x1, .f32⟩
  | .local _ .vmem, ⟨0, _⟩ => ⟨S20000x128, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | _, _ => ⟨S128x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 10], ![false, false]⟩

def k0_mult1 (i : grid0.Coords) : BitVec 32 :=
  let arg1 : BitVec 32 := BitVec.ofNat 32 (i 1).val
  let c2000_i32 : BitVec 32 := 2000#32
  let v3 : BitVec 32 := Scalar.muli arg1 c2000_i32
  v3
def k0_off1 (i : grid0.Coords) : Fin 2 → Nat :=
  let arg1 : BitVec 32 := BitVec.ofNat 32 (i 1).val
  let c2000_i32 : BitVec 32 := 2000#32
  let v3 : BitVec 32 := Scalar.muli arg1 c2000_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c9_i32 : BitVec 32 := 9#32
  let v24 : BitVec 1 := Scalar.cmpi .eq arg1 c9_i32
  let v25 : BitVec 32 := Scalar.extui v24
  let c0_i32_16 : BitVec 32 := 0#32
  let v26 : BitVec 1 := Scalar.cmpi .ne v25 c0_i32_16
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S20000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  transposes_S128x20000_S20000x128_1_0 : S128x20000.Transposes [1, 0] S20000x128
  shapeCasts_S4096_S1x4096 : S4096.ShapeCasts S1x4096
  inb_S128x512_S128x512_0_0 : ∀ a, (![0, 0] : Fin 2 → Nat) a + S128x512.size a ≤ S128x512.size a
  h_S128x512 : 0 < S128x512.numel
  shapeCasts_S128x512_S128x512 : S128x512.ShapeCasts S128x512
  h_S2000x128 : 0 < S2000x128.numel
  shapeCasts_S2000x128_S2000x128 : S2000x128.ShapeCasts S2000x128
  inb_S2000x512_S2000x512_0_0 : ∀ a, (![0, 0] : Fin 2 → Nat) a + S2000x512.size a ≤ S2000x512.size a
  h_S2000x512 : 0 < S2000x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  reduces_S128x512_S512 : S128x512.Reduces [0] S512
  shapeCasts_S512_S1x512 : S512.ShapeCasts S1x512
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S2000x128_S2000x512_S128x512_0_0_1_1_n_n_wf : DotDims.WF S2000x128 S2000x512 S128x512 [0] [0] [1] [1] [] []
  dot_S128x4096_S4096x1_S128x1_1_0_0_1_n_n_wf : DotDims.WF S128x4096 S4096x1 S128x1 [1] [0] [0] [1] [] []
  hrank0 : 0 < grid0.rank
  k0_mult1_dvd : ∀ i : grid0.Coords, 2000 ∣ (k0_mult1 i).toNat
  k0_off1_inb : ∀ i : grid0.Coords, ∀ a, (k0_off1 i) a + S2000x128.size a ≤ S20000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S20000x128.size a
  hwx0_0 : ∀ i : grid0.Coords, EltTy.bits .f32 = 32 ∨ (Rect.block (s := S20000x128) S20000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S20000x4096.size a
  hwx0_1 : ∀ i : grid0.Coords, EltTy.bits .f32 = 32 ∨ (Rect.block (s := S20000x4096) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x4096.size a
  hwx0_2 : ∀ i : grid0.Coords, EltTy.bits .f32 = 32 ∨ (Rect.block (s := S20000x4096) S2000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S20000x4096.size a
  hwx0_3 : ∀ i : grid0.Coords, EltTy.bits .f32 = 32 ∨ (Rect.block (s := S20000x4096) S2000x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S128x4096.size a
  hwx0_8 : ∀ i : grid0.Coords, EltTy.bits .f32 = 32 ∨ (Rect.block (s := S128x4096) S128x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S128x4096.size a
  hwx0_9 : ∀ i : grid0.Coords, EltTy.bits .f32 = 32 ∨ (Rect.block (s := S128x4096) S128x512.size (cc0_transform_9 i) (hinb0_9 i)).WholeWords (EltTy.packing .f32)

variable [Facts₀]

def dot_S2000x128_S2000x512_S128x512_0_0_1_1_n_n : DotDims S2000x128 S2000x512 S128x512 where
  lhsContracting := [0]
  rhsContracting := [0]
  lhsNonContracting := [1]
  rhsNonContracting := [1]
  lhsBatch := []
  rhsBatch := []
  wf := dot_S2000x128_S2000x512_S128x512_0_0_1_1_n_n_wf
def dot_S128x4096_S4096x1_S128x1_1_0_0_1_n_n : DotDims S128x4096 S4096x1 S128x1 where
  lhsContracting := [1]
  rhsContracting := [0]
  lhsNonContracting := [0]
  rhsNonContracting := [1]
  lhsBatch := []
  rhsBatch := []
  wf := dot_S128x4096_S4096x1_S128x1_1_0_0_1_n_n_wf

abbrev win0_0 : Pipeline.Window sig grid0 :=
  Pipeline.Window.ofSpec (Memref.whole main_v0) S20000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2000x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S128x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S128x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S128x20000 : Shape := ⟨2, ![128, 20000]⟩
abbrev S20000x4096 : Shape := ⟨2, ![20000, 4096]⟩
abbrev S4096 : Shape := ⟨1, ![4096]⟩
abbrev S4096x1 : Shape := ⟨2, ![4096, 1]⟩
abbrev S1 : Shape := ⟨1, ![1]⟩
abbrev S128x4096 : Shape := ⟨2, ![128, 4096]⟩
abbrev S1x4096 : Shape := ⟨2, ![1, 4096]⟩
abbrev S_ : Shape := ⟨0, ![]⟩
abbrev S128x1 : Shape := ⟨2, ![128, 1]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S128x20000, .f32⟩
  | .hbm, ⟨1, _⟩ => ⟨S20000x4096, .f32⟩
  | .hbm, ⟨2, _⟩ => ⟨S20000x4096, .f32⟩
  | .hbm, ⟨3, _⟩ => ⟨S4096, .f32⟩
  | .hbm, ⟨4, _⟩ => ⟨S20000x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S1, .f32⟩
  | .hbm, ⟨10, _⟩ => ⟨S20000x4096, .f32⟩
  | .hbm, ⟨11, _⟩ => ⟨S128x4096, .f32⟩
  | .hbm, ⟨12, _⟩ => ⟨S1x4096, .f32⟩
  | .hbm, ⟨13, _⟩ => ⟨S128x4096, .f32⟩
  | .hbm, ⟨14, _⟩ => ⟨S128x4096, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S128x4096, .f32⟩
  | .hbm, ⟨22, _⟩ => ⟨S128x4096, .f32⟩
  | .hbm, ⟨23, _⟩ => ⟨S128x4096, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S128x4096, .f32⟩
  | .hbm, ⟨31, _⟩ => ⟨S128x4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S1x4096, .f32⟩
  | .hbm, ⟨37, _⟩ => ⟨S128x4096, .f32⟩
  | .hbm, ⟨38, _⟩ => ⟨S128x4096, .f32⟩
  | .hbm, ⟨39, _⟩ => ⟨S1x4096, .f32⟩
  | .hbm, ⟨40, _⟩ => ⟨S128x4096, .f32⟩
  | .hbm, ⟨41, _⟩ => ⟨S128x4096, .f32⟩
  | .hbm, ⟨42, _⟩ => ⟨S1x4096, .f32⟩
  | .hbm, ⟨43, _⟩ => ⟨S128x4096, .f32⟩
  | .hbm, ⟨44, _⟩ => ⟨S128x4096, .f32⟩
  | .hbm, ⟨45, _⟩ => ⟨S128x4096, .f32⟩
  | .hbm, ⟨46, _⟩ => ⟨S128x4096, .f32⟩
  | .hbm, ⟨47, _⟩ => ⟨S1x4096, .f32⟩
  | .hbm, ⟨48, _⟩ => ⟨S128x4096, .f32⟩
  | .hbm, ⟨49, _⟩ => ⟨S128x4096, .f32⟩
  | .hbm, ⟨50, _⟩ => ⟨S128x4096, .f32⟩
  | .hbm, ⟨51, _⟩ => ⟨S128x4096, .f32⟩
  | .hbm, ⟨52, _⟩ => ⟨S_, .f32⟩
  | .hbm, ⟨53, _⟩ => ⟨S128x4096, .f32⟩
  | .hbm, ⟨54, _⟩ => ⟨S128x4096, .f32⟩
  | .hbm, ⟨55, _⟩ => ⟨S_, .f32⟩
  | .hbm, ⟨56, _⟩ => ⟨S128x4096, .f32⟩
  | .hbm, ⟨57, _⟩ => ⟨S128x4096, .f32⟩
  | .hbm, ⟨58, _⟩ => ⟨S128x4096, .f32⟩
  | .hbm, ⟨59, _⟩ => ⟨S128x1, .f32⟩
  | .hbm, ⟨60, _⟩ => ⟨S1x1, .f32⟩
  | .hbm, ⟨61, _⟩ => ⟨S128x1, .f32⟩
  | .hbm, ⟨62, _⟩ => ⟨S128x1, .f32⟩
  | _, _ => ⟨S128x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  reducesTo_S128x4096_S4096_d0 : S128x4096.ReducesTo [0] S4096
  h_S_ : 0 < S_.numel
  bcast_S_S4096 : S_.BroadcastsInDim S4096 (![] : Fin 0 → Fin S4096.rank)
  bcast_S_S128x4096 : S_.BroadcastsInDim S128x4096 (![] : Fin 0 → Fin S128x4096.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S128x20000_S20000x4096_S128x4096_1_0_0_1_n_n_wf : DotDims.WF S128x20000 S20000x4096 S128x4096 [1] [0] [0] [1] [] []
  dot_S128x4096_S4096x1_S128x1_1_0_0_1_n_n_wf : DotDims.WF S128x4096 S4096x1 S128x1 [1] [0] [0] [1] [] []

variable [Facts₀]

def dot_S128x20000_S20000x4096_S128x4096_1_0_0_1_n_n : DotDims S128x20000 S20000x4096 S128x4096 where
  lhsContracting := [1]
  rhsContracting := [0]
  lhsNonContracting := [0]
  rhsNonContracting := [1]
  lhsBatch := []
  rhsBatch := []
  wf := dot_S128x20000_S20000x4096_S128x4096_1_0_0_1_n_n_wf
def dot_S128x4096_S4096x1_S128x1_1_0_0_1_n_n : DotDims S128x4096 S4096x1 S128x1 where
  lhsContracting := [1]
  rhsContracting := [0]
  lhsNonContracting := [0]
  rhsNonContracting := [1]
  lhsBatch := []
  rhsBatch := []
  wf := dot_S128x4096_S4096x1_S128x1_1_0_0_1_n_n_wf

class Facts : Prop extends Facts₀ where

variable [Facts]
-- ==== Proof.Spec.lean ====
/-
  The result of the gated, batch-normalised sparse layer, entry by entry, on the extended reals.

  For a batch row `r` and a pathway `p`:
    pre r p     = (∑ g, X r g · (K g p · M g p)) + bias p           the masked linear layer
    mean p      = (∑ r, pre r p) / 128                               the batch mean of column p
    dev r p     = pre r p − mean p
    var p       = (∑ r, dev r p · dev r p) / 128                     the biased batch variance
    normed r p  = tanh (dev r p · rsqrt (var p + ε) · γ p + β p)
    gate r p    = logistic ((∑ g, X r g · A g p) + abias p)          the attention gate
    outcome r p = normed r p · gate r p
  The three results are the outcome matrix, the gate matrix, and the decision column
  (∑ p, outcome r p · w p) + d, which both programs compute by the same operations from the outcome matrix.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The shapes of the arguments and of the two matrix results. -/
abbrev SX : Shape := ⟨2, ![128, 20000]⟩
abbrev SW : Shape := ⟨2, ![20000, 4096]⟩
abbrev SV : Shape := ⟨1, ![4096]⟩
abbrev SO : Shape := ⟨2, ![128, 4096]⟩

/-- The float word of 1.0 denotes the extended real 1. -/
theorem ofBits_one : Ideal.ofBits .f32 0x3F800000#32 = 1 := by
  simp [Ideal.ofBits, Ideal.ieee, -EReal.coe_mul]; norm_num

/-- The batch size 128.0 and the variance offset, as the words both programs spell. -/
abbrev n128 : EReal := Ideal.ofBits .f32 0x43000000#32
abbrev eps : EReal := Ideal.ofBits .f32 0x3727C5AC#32

/-! ### Batch statistics of one column

A column of 128 batch entries `col`: its mean, its biased variance, and an entry normalised, scaled by `g`, shifted
by `b` and squashed. Both programs compute these column by column. -/

def cmean (col : Fin 128 → EReal) : EReal := Ideal.div (∑ r : Fin 128, col r) n128

def cvar (col : Fin 128 → EReal) : EReal :=
  Ideal.div (∑ r : Fin 128, (col r - cmean col) * (col r - cmean col)) n128

def cnorm (col : Fin 128 → EReal) (g b : EReal) (r : Fin 128) : EReal :=
  Ideal.tanh ((col r - cmean col) * Ideal.rsqrt (cvar col + eps) * g + b)

section
variable (X : SX.Idx → EReal) (Mp Kn Ak : SW.Idx → EReal) (b ab ga be : SV.Idx → EReal)

/-- Row `r` of the inputs against column `p` of a weight matrix `W`. -/
def dot (W : SW.Idx → EReal) (r : Fin 128) (p : Fin 4096) : EReal :=
  ∑ g : Fin 20000, X (ix2 r g) * W (ix2 g p)

/-- The masked weights: the dense kernel times the connectivity map, entry by entry. -/
def masked : SW.Idx → EReal := fun i => Kn i * Mp i

def pre (r : Fin 128) (p : Fin 4096) : EReal := dot X (masked Mp Kn) r p + b (ix1 p)

def mean (p : Fin 4096) : EReal := Ideal.div (∑ r : Fin 128, pre X Mp Kn b r p) n128

def dev (r : Fin 128) (p : Fin 4096) : EReal := pre X Mp Kn b r p - mean X Mp Kn b p

def var (p : Fin 4096) : EReal := Ideal.div (∑ r : Fin 128, dev X Mp Kn b r p * dev X Mp Kn b r p) n128

def normed (r : Fin 128) (p : Fin 4096) : EReal :=
  Ideal.tanh (dev X Mp Kn b r p * Ideal.rsqrt (var X Mp Kn b p + eps) * ga (ix1 p) + be (ix1 p))

def gate (r : Fin 128) (p : Fin 4096) : EReal := Ideal.logistic (dot X Ak r p + ab (ix1 p))

def outcome (r : Fin 128) (p : Fin 4096) : EReal := normed X Mp Kn b ga be r p * gate X Ak ab r p

/-- The normalised entry is the column statistic of the column of `pre`. -/
theorem normed_eq (r : Fin 128) (p : Fin 4096) :
    normed X Mp Kn b ga be r p = cnorm (fun k => pre X Mp Kn b k p) (ga (ix1 p)) (be (ix1 p)) r := rfl

/-- The outcome matrix and the gate matrix as arrays. -/
def OUT : SO.Idx → EReal := fun i => outcome X Mp Kn Ak b ab ga be (i 0) (i 1)
def ATT : SO.Idx → EReal := fun i => gate X Ak ab (i 0) (i 1)

end

end Cert.Spec

end
-- ==== Proof.RefSide.lean ====
import proofs.«140831_j4827543241281_2_alg».proof.Defs
import proofs.«140831_j4827543241281_2_alg».proof.Proof.Gen.ReferenceIdeal.Read
import proofs.«140831_j4827543241281_2_alg».proof.Proof.Spec
import Idealize.ShloMosaic.Lib.ValueIdx
import Idealize.ShloMosaic.PureOps.Ideal.Laws

/-!
  The reference computes the specified result.

  Its stages are read one at a time at coordinates: the masked linear layer is `pre`, the two column reductions
  over the batch are `mean` and `var` (a host sum starts from the zero word, which denotes 0), the broadcasts of a
  length-4096 vector over the batch rows read the vector at the column, and its sigmoid, spelt
  1 / (1 + exp (−x)), is the logistic function by definition once the word of 1.0 is read as 1.
-/

noncomputable section

namespace Cert.ReferenceIdeal.RefSide

open Cert.ReferenceIdeal Cert.ReferenceIdeal.Read Idealize.ShloMosaic Idealize.ShloMosaic.ValueIdx Cert.Spec
open scoped BigOperators

local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

variable (x0 : (⟨S128x20000, .f32⟩ : BufTy).Contents (Elt Ideal))
  (x1 x2 x4 : (⟨S20000x4096, .f32⟩ : BufTy).Contents (Elt Ideal))
  (x3 x5 x6 x7 : (⟨S4096, .f32⟩ : BufTy).Contents (Elt Ideal))

/-! ### Where each stage reads its operand -/

theorem lidx1 (r : Fin 128) (p : Fin 4096) (k : Fin 20000) : lidx_main_v1 (ix2 r p) k = ix2 r k := by idx2
theorem ridx1 (r : Fin 128) (p : Fin 4096) (k : Fin 20000) : ridx_main_v1 (ix2 r p) k = ix2 k p := by idx2
theorem lidx31 (r : Fin 128) (p : Fin 4096) (k : Fin 20000) : lidx_main_v31 (ix2 r p) k = ix2 r k := by idx2
theorem ridx31 (r : Fin 128) (p : Fin 4096) (k : Fin 20000) : ridx_main_v31 (ix2 r p) k = ix2 k p := by idx2
theorem i5 (p : Fin 4096) (k : Fin 128) : idx_main_v5 (ix1 p) k = ix2 k p := by idx2
theorem i12 (p : Fin 4096) (k : Fin 128) : idx_main_v12 (ix1 p) k = ix2 k p := by idx2
theorem b3 (r : Fin 128) (p : Fin 4096) : idx_main_v2 (idx_main_v3 (ix2 r p)) = ix1 p := by idx1
theorem b9 (r : Fin 128) (p : Fin 4096) : idx_main_v8 (idx_main_v9 (ix2 r p)) = ix1 p := by idx1
theorem b16 (r : Fin 128) (p : Fin 4096) : idx_main_v15 (idx_main_v16 (ix2 r p)) = ix1 p := by idx1
theorem b22 (r : Fin 128) (p : Fin 4096) : idx_main_v21 (idx_main_v22 (ix2 r p)) = ix1 p := by idx1
theorem b25 (r : Fin 128) (p : Fin 4096) : idx_main_v24 (idx_main_v25 (ix2 r p)) = ix1 p := by idx1
theorem b28 (r : Fin 128) (p : Fin 4096) : idx_main_v27 (idx_main_v28 (ix2 r p)) = ix1 p := by idx1
theorem b33 (r : Fin 128) (p : Fin 4096) : idx_main_v32 (idx_main_v33 (ix2 r p)) = ix1 p := by idx1

/-! ### The stages -/

/-- The masked linear layer of the reference is `pre`. -/
theorem ref_pre (r : Fin 128) (p : Fin 4096) :
    val_main_v4 (F := Ideal) x0 x1 x2 x3 (ix2 r p) = pre x0 x1 x2 x3 r p := by
  rw [val_main_v4_apply, val_main_v1_apply, val_main_v3_apply, val_main_v2_apply, b3]
  unfold pre dot masked
  rw [Ideal.addf_def]
  refine congrArg (· + x3 (ix1 p)) (Finset.sum_congr rfl fun g _ => ?_)
  rw [val_main_v0_apply, lidx1, ridx1, Ideal.mulf_def]

/-- The batch mean of a column. -/
theorem ref_mean (p : Fin 4096) : val_main_v7 (F := Ideal) x0 x1 x2 x3 (ix1 p) = mean x0 x1 x2 x3 p := by
  rw [val_main_v7_apply, val_main_v5_apply, val_main_v6_apply, val_main_cst_0_apply, val_main_cst_apply,
    Ideal.hostDivf_def, Ideal.ofBits_def, Ideal.ofBits_def, Ideal.ofBits_zero_f32, zero_add]
  unfold mean
  refine congrArg (Ideal.div · n128) (Finset.sum_congr rfl fun k _ => ?_)
  rw [i5, ref_pre]

/-- The deviation from the batch mean (the reference forms it twice, from two broadcasts of the same mean). -/
theorem ref_dev (r : Fin 128) (p : Fin 4096) :
    val_main_v10 (F := Ideal) x0 x1 x2 x3 (ix2 r p) = dev x0 x1 x2 x3 r p := by
  rw [val_main_v10_apply, val_main_v9_apply, val_main_v8_apply, b9, ref_pre, ref_mean, Ideal.subf_def]
  rfl

theorem ref_dev' (r : Fin 128) (p : Fin 4096) :
    val_main_v17 (F := Ideal) x0 x1 x2 x3 (ix2 r p) = dev x0 x1 x2 x3 r p := by
  rw [val_main_v17_apply, val_main_v16_apply, val_main_v15_apply, b16, ref_pre, ref_mean, Ideal.subf_def]
  rfl

/-- The biased batch variance of a column. -/
theorem ref_var (p : Fin 4096) : val_main_v14 (F := Ideal) x0 x1 x2 x3 (ix1 p) = var x0 x1 x2 x3 p := by
  rw [val_main_v14_apply, val_main_v12_apply, val_main_v13_apply, val_main_cst_2_apply, val_main_cst_1_apply,
    Ideal.hostDivf_def, Ideal.ofBits_def, Ideal.ofBits_def, Ideal.ofBits_zero_f32, zero_add]
  unfold var
  refine congrArg (Ideal.div · n128) (Finset.sum_congr rfl fun k _ => ?_)
  rw [i12, val_main_v11_apply, ref_dev, Ideal.mulf_def]

/-- Normalised, scaled, shifted, and squashed by tanh. -/
theorem ref_normed (r : Fin 128) (p : Fin 4096) :
    val_main_v30 (F := Ideal) x0 x1 x2 x3 x6 x7 (ix2 r p) = normed x0 x1 x2 x3 x6 x7 r p := by
  rw [val_main_v30_apply, val_main_v29_apply, val_main_v26_apply, val_main_v23_apply, val_main_v22_apply,
    val_main_v21_apply, b22, val_main_v20_apply, val_main_v19_apply, val_main_v18_apply, val_main_cst_3_apply,
    val_main_v25_apply, val_main_v24_apply, b25, val_main_v28_apply, val_main_v27_apply, b28, ref_dev', ref_var]
  unfold normed
  simp only [Ideal.hostUnary_tanh_def, Ideal.hostUnary_rsqrt_def, Ideal.addf_def, Ideal.mulf_def, Ideal.ofBits_def]

/-- The attention gate: the reference's 1 / (1 + exp (−x)) is the logistic function. -/
theorem ref_gate (r : Fin 128) (p : Fin 4096) :
    val_main_v40 (F := Ideal) x0 x4 x5 (ix2 r p) = gate x0 x4 x5 r p := by
  rw [val_main_v40_apply, val_main_v39_apply, val_main_cst_5_apply, val_main_v38_apply, val_main_v37_apply,
    val_main_cst_4_apply, val_main_v36_apply, val_main_v35_apply, val_main_v34_apply, val_main_v33_apply,
    val_main_v32_apply, b33, val_main_v31_apply, Ideal.ofBits_def, ofBits_one]
  unfold gate dot Ideal.logistic
  rw [Ideal.hostDivf_def, Ideal.addf_def, Ideal.hostUnary_exp_def, Ideal.hostNegf_def, Ideal.negf_def, Ideal.addf_def]
  refine congrArg (fun s => Ideal.div 1 (1 + Ideal.exp (-(s + x5 (ix1 p))))) (Finset.sum_congr rfl fun g _ => ?_)
  rw [lidx31, ridx31]

theorem ref_outcome (r : Fin 128) (p : Fin 4096) :
    val_main_v41 (F := Ideal) x0 x1 x2 x3 x4 x5 x6 x7 (ix2 r p) = outcome x0 x1 x2 x4 x3 x5 x6 x7 r p := by
  rw [val_main_v41_apply, ref_normed, ref_gate, Ideal.mulf_def]
  rfl

/-! ### The two matrix results as arrays -/

theorem ref_OUT : val_main_v41 (F := Ideal) x0 x1 x2 x3 x4 x5 x6 x7 = OUT x0 x1 x2 x4 x3 x5 x6 x7 := by
  funext i
  obtain ⟨r, p, rfl⟩ : ∃ (r : Fin 128) (p : Fin 4096), i = ix2 r p := ⟨i 0, i 1, eq_ix2 i⟩
  exact ref_outcome x0 x1 x2 x4 x3 x5 x6 x7 r p

theorem ref_ATT : val_main_v40 (F := Ideal) x0 x4 x5 = ATT x0 x4 x5 := by
  funext i
  obtain ⟨r, p, rfl⟩ : ∃ (r : Fin 128) (p : Fin 4096), i = ix2 r p := ⟨i 0, i 1, eq_ix2 i⟩
  exact ref_gate x0 x4 x5 r p

end Cert.ReferenceIdeal.RefSide

end
-- ==== Proof.KPieces.lean ====
import proofs.«140831_j4827543241281_2_alg».proof.Proof.Gen.KernelIdeal.Frame
import Idealize.ShloMosaic.Lib.Pipeline.Value
import Idealize.ShloMosaic.Lib.Tactic

/-!
  What one grid step leaves behind, as values.

  A step at reduction tile g loads rows [2000 g, 2000 g + 2000) of the transposed inputs (`xtile`), the three
  weight blocks, and the two accumulators. At g = 0 the accumulators are first zeroed, so the step leaves
  0 + tile product; at every other step it leaves accumulator + tile product; at g = 9 it also writes the two
  output blocks, computed from the accumulators it has just updated and the four parameter rows.
-/

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 2000 rows of the transposed inputs a step contracts: rows 2000 g … of the whole staged array. -/
def xtile (i : grid0.Coords) (x0 : Vec F S20000x128 .f32) : Vec F S2000x128 .f32 :=
  View.ld x0 (Rect.unit (s := S20000x128) (k0_off1 i) S2000x128.size (k0_off1_inb i))

/-- The zero block a first step stores into each accumulator. -/
abbrev zeroBlock : Vec F S128x512 .f32 := k0_pay1 (F := F)

variable (c : Dev nD) (i : grid0.Coords) (arg2 : Memref sig .tc .vmem S20000x128 .f32) (harg2 : arg2.IsWhole) (arg3 : Memref sig .tc .vmem S2000x512 .f32) (harg3 : arg3.IsWhole) (arg4 : Memref sig .tc .vmem S2000x512 .f32) (harg4 : arg4.IsWhole) (arg5 : Memref sig .tc .vmem S2000x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S128x512 .f32) (harg10 : arg10.IsWhole) (arg11 : Memref sig .tc .vmem S128x512 .f32) (harg11 : arg11.IsWhole) (arg12 : Memref sig .tc .vmem S128x512 .f32) (harg12 : arg12.IsWhole) (arg13 : Memref sig .tc .vmem S128x512 .f32) (harg13 : arg13.IsWhole)

/-! ### First step of a column tile (g = 0) -/

theorem hacc_A (x0 : Vec F S20000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay4 (xtile i x0) x2 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S128x512) hz, View.readCov_unit_zero (S := S128x512) _ hz]
  simp only [View.readAt_eq_ld, harg2.read_unread, harg3.read_unread, harg4.read_unread, harg5.read_unread, harg6.read_unread, harg7.read_unread, harg8.read_unread, harg9.read_unread, harg12.read_unread, harg13.read_unread, View.ld_unit_zero (S := S2000x512) hz, View.ld_unit_zero (S := S128x512) hz, View.ld_unit_zero (S := S1x512) hz]
  rfl

theorem aacc_A (x0 : Vec F S20000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay5 (xtile i x0) x3 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S128x512) hz, View.readCov_unit_zero (S := S128x512) _ hz]
  simp only [View.readAt_eq_ld, harg2.read_unread, harg3.read_unread, harg4.read_unread, harg5.read_unread, harg6.read_unread, harg7.read_unread, harg8.read_unread, harg9.read_unread, harg12.read_unread, harg13.read_unread, View.ld_unit_zero (S := S2000x512) hz, View.ld_unit_zero (S := S128x512) hz, View.ld_unit_zero (S := S1x512) hz]
  rfl

/-! ### A middle step (0 < g < 9) -/

theorem hacc_B (x0 : Vec F S20000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 : Vec F S128x512 .f32) (xs1 : Vec F S128x512 .f32) (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay4 (xtile i x0) x2 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero (S := S128x512) hz]
  simp only [View.readAt_eq_ld, harg2.read_unread, harg3.read_unread, harg4.read_unread, harg5.read_unread, harg6.read_unread, harg7.read_unread, harg8.read_unread, harg9.read_unread, harg12.read_unread, harg13.read_unread, View.ld_unit_zero (S := S2000x512) hz, View.ld_unit_zero (S := S128x512) hz, View.ld_unit_zero (S := S1x512) hz]
  rfl

theorem aacc_B (x0 : Vec F S20000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 : Vec F S128x512 .f32) (xs1 : Vec F S128x512 .f32) (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay5 (xtile i x0) x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero (S := S128x512) hz]
  simp only [View.readAt_eq_ld, harg2.read_unread, harg3.read_unread, harg4.read_unread, harg5.read_unread, harg6.read_unread, harg7.read_unread, harg8.read_unread, harg9.read_unread, harg12.read_unread, harg13.read_unread, View.ld_unit_zero (S := S2000x512) hz, View.ld_unit_zero (S := S128x512) hz, View.ld_unit_zero (S := S1x512) hz]
  rfl

/-! ### The last step (g = 9) -/

theorem hacc_C (x0 : Vec F S20000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 : Vec F S128x512 .f32) (xs1 : Vec F S128x512 .f32) (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay4 (xtile i x0) x2 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero (S := S128x512) hz]
  simp only [View.readAt_eq_ld, harg2.read_unread, harg3.read_unread, harg4.read_unread, harg5.read_unread, harg6.read_unread, harg7.read_unread, harg8.read_unread, harg9.read_unread, harg12.read_unread, harg13.read_unread, View.ld_unit_zero (S := S2000x512) hz, View.ld_unit_zero (S := S128x512) hz, View.ld_unit_zero (S := S1x512) hz]
  rfl

theorem aacc_C (x0 : Vec F S20000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 : Vec F S128x512 .f32) (xs1 : Vec F S128x512 .f32) (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay5 (xtile i x0) x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero (S := S128x512) hz]
  simp only [View.readAt_eq_ld, harg2.read_unread, harg3.read_unread, harg4.read_unread, harg5.read_unread, harg6.read_unread, harg7.read_unread, harg8.read_unread, harg9.read_unread, harg12.read_unread, harg13.read_unread, View.ld_unit_zero (S := S2000x512) hz, View.ld_unit_zero (S := S128x512) hz, View.ld_unit_zero (S := S1x512) hz]
  rfl

/-- The outcome block the last step writes: from the two accumulators it has just updated and the parameter rows. -/
theorem out_C (x0 : Vec F S20000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 : Vec F S128x512 .f32) (xs1 : Vec F S128x512 .f32) (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1
      = k0_pay7 (k0_pay4 (xtile i x0) x2 x1 xs0) x4 x6 x7 (k0_pay5 (xtile i x0) x3 xs1) x5 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero (S := S128x512) hz]
  simp only [View.readCov_unit_zero (S := S128x512) _ hz]
  simp only [View.readAt_eq_ld, harg2.read_unread, harg3.read_unread, harg4.read_unread, harg5.read_unread, harg6.read_unread, harg7.read_unread, harg8.read_unread, harg9.read_unread, harg12.read_unread, harg13.read_unread, View.ld_unit_zero (S := S2000x512) hz, View.ld_unit_zero (S := S128x512) hz, View.ld_unit_zero (S := S1x512) hz]
  rfl

/-- The gate block the last step writes. -/
theorem att_C (x0 : Vec F S20000x128 .f32) (x1 : Vec F S2000x512 .f32) (x2 : Vec F S2000x512 .f32) (x3 : Vec F S2000x512 .f32) (x4 : Vec F S1x512 .f32) (x5 : Vec F S1x512 .f32) (x6 : Vec F S1x512 .f32) (x7 : Vec F S1x512 .f32) (xs0 : Vec F S128x512 .f32) (xs1 : Vec F S128x512 .f32) (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay6 (k0_pay5 (xtile i x0) x3 xs1) x5 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero (S := S128x512) hz]
  simp only [View.readCov_unit_zero (S := S128x512) _ hz]
  simp only [View.readAt_eq_ld, harg2.read_unread, harg3.read_unread, harg4.read_unread, harg5.read_unread, harg6.read_unread, harg7.read_unread, harg8.read_unread, harg9.read_unread, harg12.read_unread, harg13.read_unread, View.ld_unit_zero (S := S2000x512) hz, View.ld_unit_zero (S := S128x512) hz, View.ld_unit_zero (S := S1x512) hz]
  rfl

end Cert.KernelIdeal.Pieces

end
-- ==== Proof.KSteps.lean ====
import proofs.«140831_j4827543241281_2_alg».proof.Proof.KPieces

/-!
  What each of the 80 grid steps leaves in the two accumulators and, at a last reduction step, in the two
  output blocks: the generated per-step contents, case by case, as the body's arithmetic applied to the step's blocks
  and to what the previous step left.
-/

set_option maxRecDepth 16384

noncomputable section

open Idealize.ShloMosaic Idealize.ShloMosaic.TcCoe Idealize.SL.Sem

namespace Cert.KernelIdeal.Steps

open Cert.KernelIdeal Cert.KernelIdeal.Gen Cert.KernelIdeal.Pieces

variable {F : FTy → Type} [FloatOps F]
variable (m : (ℓ : Loc nD τ sig) → Buf (Elt F) ℓ) (c : Dev nD)

/-- The rows of the transposed inputs step t contracts. -/
abbrev xt (t : Fin cfg0.N) : Vec F S2000x128 .f32 := xtile (grid0.coords t) (iblk m c 0 t)

/-- The pre-activation and attention accumulators after step t from accumulators `a`, `b`. -/
abbrev hstep (t : Fin cfg0.N) (a : Vec F S128x512 .f32) : Vec F S128x512 .f32 :=
  k0_pay4 (xt m c t) (iblk m c 2 t) (iblk m c 1 t) a
abbrev astep (t : Fin cfg0.N) (b : Vec F S128x512 .f32) : Vec F S128x512 .f32 :=
  k0_pay5 (xt m c t) (iblk m c 3 t) b

/-- A first step of a column tile starts both accumulators from the zero block. -/
theorem step_A (t : Fin cfg0.N) (h0 : t.val % 10 = 0) (h1 : ¬t.val % 10 = 9) :
    (outsAt0 m c t.val t.isLt).2.2.1 = hstep m c t (k0_pay1 (F := F))
    ∧ (outsAt0 m c t.val t.isLt).2.2.2 = astep m c t (k0_pay2 (F := F)) := by
  rw [outsAt0_A m c t h0 h1]
  dsimp only
  refine ⟨?_, ?_⟩
  · exact hacc_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))
  · exact aacc_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))

/-- A middle step adds its tile to what the previous step left. -/
theorem step_B (t : Fin cfg0.N) (h0 : ¬t.val % 10 = 0) (h1 : ¬t.val % 10 = 9) :
    (outsAt0 m c t.val t.isLt).2.2.1 = hstep m c t (outsAt0 m c (t.val - 1) (Nat.lt_of_le_of_lt (Nat.sub_le _ _) t.isLt)).2.2.1
    ∧ (outsAt0 m c t.val t.isLt).2.2.2 = astep m c t (outsAt0 m c (t.val - 1) (Nat.lt_of_le_of_lt (Nat.sub_le _ _) t.isLt)).2.2.2 := by
  rw [outsAt0_B m c t h0 h1]
  dsimp only
  refine ⟨?_, ?_⟩
  · exact hacc_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))
  · exact aacc_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))

/-- A last step adds its tile and writes the two output blocks from the finished accumulators. -/
theorem step_C (t : Fin cfg0.N) (h0 : ¬t.val % 10 = 0) (h1 : t.val % 10 = 9) :
    (outsAt0 m c t.val t.isLt).2.2.1 = hstep m c t (outsAt0 m c (t.val - 1) (Nat.lt_of_le_of_lt (Nat.sub_le _ _) t.isLt)).2.2.1
    ∧ (outsAt0 m c t.val t.isLt).2.2.2 = astep m c t (outsAt0 m c (t.val - 1) (Nat.lt_of_le_of_lt (Nat.sub_le _ _) t.isLt)).2.2.2
    ∧ (outsAt0 m c t.val t.isLt).1
        = k0_pay7 (hstep m c t (outsAt0 m c (t.val - 1) (Nat.lt_of_le_of_lt (Nat.sub_le _ _) t.isLt)).2.2.1) (iblk m c 4 t) (iblk m c 6 t) (iblk m c 7 t)
            (astep m c t (outsAt0 m c (t.val - 1) (Nat.lt_of_le_of_lt (Nat.sub_le _ _) t.isLt)).2.2.2) (iblk m c 5 t)
    ∧ (outsAt0 m c t.val t.isLt).2.1 = k0_pay6 (astep m c t (outsAt0 m c (t.val - 1) (Nat.lt_of_le_of_lt (Nat.sub_le _ _) t.isLt)).2.2.2) (iblk m c 5 t) := by
  rw [outsAt0_C m c t h0 h1]
  dsimp only
  refine ⟨?_, ?_, ?_, ?_⟩
  · exact hacc_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · exact aacc_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · exact out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · exact att_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)

end Cert.KernelIdeal.Steps

end
-- ==== Proof.KPayload.lean ====
import proofs.«140831_j4827543241281_2_alg».proof.Proof.Gen.KernelIdeal.Skeleton
import proofs.«140831_j4827543241281_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The body's arithmetic, read at an entry (r, j) of a [128, 512] block, on the extended reals.

  * The tile product contracts the 2000 rows of the step: ∑ k, xt (k, r) · w (k, j).
  * An accumulator update is the old entry plus that sum.
  * The gate is the logistic of the attention accumulator plus the attention-bias row.
  * The outcome is the column statistic `cnorm` of the column j of (accumulator + bias row), scaled and shifted by
    the γ and β rows, times the gate. A row [1, 512] broadcast over the 128 batch rows reads the row at j; a sum over
    axis 0 of a [128, 512] block reads, at j, the sum over the batch of column j.
-/

set_option maxRecDepth 16384

noncomputable section

namespace Cert.KernelIdeal.Payload

open Cert.KernelIdeal Cert.KernelIdeal.Gen Idealize.ShloMosaic Idealize.ShloMosaic.ValueIdx Cert.Spec
open scoped BigOperators

/-- The step's contraction: axis 0 of [2000, 128] against axis 0 of [2000, 512]. -/
abbrev D : DotDims S2000x128 S2000x512 S128x512 := dot_S2000x128_S2000x512_S128x512_0_0_1_1_n_n

theorem lhs0 (i : S128x512.Idx) (q : D.contr.Idx) : (D.lhsIdx i q 0).val = (q ⟨0, by decide⟩).val :=
  D.lhsIdx_val_of_single rfl i q
theorem lhs1 (i : S128x512.Idx) (q : D.contr.Idx) : (D.lhsIdx i q 1).val = (i 0).val := by
  unfold DotDims.lhsIdx
  rw [dif_neg (show ¬(1 : Fin S2000x128.rank) ∈ D.lhsBatch by decide),
    dif_pos (show (1 : Fin S2000x128.rank) ∈ D.lhsNonContracting by decide)]
  rfl
theorem rhs0 (i : S128x512.Idx) (q : D.contr.Idx) : (D.rhsIdx i q 0).val = (q ⟨0, by decide⟩).val :=
  D.rhsIdx_val_of_single rfl i q
theorem rhs1 (i : S128x512.Idx) (q : D.contr.Idx) : (D.rhsIdx i q 1).val = (i 1).val := by
  unfold DotDims.rhsIdx
  rw [dif_neg (show ¬(1 : Fin S2000x512.rank) ∈ D.rhsBatch by decide),
    dif_pos (show (1 : Fin S2000x512.rank) ∈ D.rhsNonContracting by decide)]
  rfl

/-- The tile product into a zero accumulator, at (r, j): the sum over the step's 2000 rows. -/
theorem tile_dot (L : FVec Ideal S2000x128 .f32) (R : FVec Ideal S2000x512 .f32) (r : Fin 128) (j : Fin 512) :
    matmul D (some .fp32) L R (constant S128x512 .f32 0x00000000#32) (ix2 r j)
      = ∑ k : Fin 2000, L (ix2 k r) * R (ix2 k j) := by
  simp only [matmul]
  rw [Ideal.matmul_constant_zero_apply, ← Equiv.sum_comp (contrEquiv1 D 2000 rfl rfl).symm]
  refine Finset.sum_congr rfl fun k _ => ?_
  have hk := contrEquiv1_symm_val D 2000 rfl rfl k
  have el : D.lhsIdx (ix2 r j) ((contrEquiv1 D 2000 rfl rfl).symm k) = ix2 k r := funext fun a => Fin.ext (by
    match a with
    | ⟨0, _⟩ => exact (lhs0 _ _).trans hk
    | ⟨1, _⟩ => exact lhs1 _ _)
  have er : D.rhsIdx (ix2 r j) ((contrEquiv1 D 2000 rfl rfl).symm k) = ix2 k j := funext fun a => Fin.ext (by
    match a with
    | ⟨0, _⟩ => exact (rhs0 _ _).trans hk
    | ⟨1, _⟩ => exact rhs1 _ _)
  rw [el, er]

/-- The pre-activation accumulator after a step: the old entry plus the tile's sum of x · (kernel · map). -/
theorem pay4_apply (v6 : Vec Ideal S2000x128 .f32) (v8 v9 : Vec Ideal S2000x512 .f32) (v14 : Vec Ideal S128x512 .f32)
    (r : Fin 128) (j : Fin 512) :
    k0_pay4 (F := Ideal) v6 v8 v9 v14 (ix2 r j)
      = v14 (ix2 r j) + ∑ k : Fin 2000, v6 (ix2 k r) * (v8 (ix2 k j) * v9 (ix2 k j)) := by
  unfold k0_pay4 k0_pay3
  dsimp only
  simp only [shapeCast_self]
  exact congrArg (v14 (ix2 r j) + ·) (tile_dot v6 (mulf v8 v9) r j)

/-- The attention accumulator after a step. -/
theorem pay5_apply (v6 : Vec Ideal S2000x128 .f32) (v11 : Vec Ideal S2000x512 .f32) (v19 : Vec Ideal S128x512 .f32)
    (r : Fin 128) (j : Fin 512) :
    k0_pay5 (F := Ideal) v6 v11 v19 (ix2 r j) = v19 (ix2 r j) + ∑ k : Fin 2000, v6 (ix2 k r) * v11 (ix2 k j) := by
  unfold k0_pay5 k0_pay3
  dsimp only
  simp only [shapeCast_self]
  exact congrArg (v19 (ix2 r j) + ·) (tile_dot v6 v11 r j)

/-- A parameter row broadcast over the batch reads the row at the column. -/
theorem row_bcast (v : Vec Ideal S1x512 .f32) (r : Fin 128) (j : Fin 512) :
    broadcastTo S128x512 (shapeCast S1x512 v shapeCasts_S1x512_S1x512) broadcasts_S1x512_S128x512 (ix2 r j)
      = v (ix2 (0 : Fin 1) j) := by
  rw [shapeCast_self]
  exact broadcastTo_1b_ab_apply v broadcasts_S1x512_S128x512 r j

/-- A computed row [1, 512] broadcast over the batch. -/
theorem row_bcast' (v : FVec Ideal S1x512 .f32) (r : Fin 128) (j : Fin 512) :
    broadcastTo S128x512 v broadcasts_S1x512_S128x512 (ix2 r j) = v (ix2 (0 : Fin 1) j) :=
  broadcastTo_1b_ab_apply v broadcasts_S1x512_S128x512 r j

/-- The sum of a block over the batch axis, kept as a row, reads at (0, j) the sum of column j. -/
theorem col_sum (x : FVec Ideal S128x512 .f32) (hφ : FKind.Formats .f32)
    (hacc : (0x00000000#32 : BitVec 32) = FKind.add.neutral .f32 hφ) (j : Fin 512) :
    shapeCast S1x512 (multiReduction .add [0] S512 x 0x00000000#32 reduces_S128x512_S512 hφ hacc)
        shapeCasts_S512_S1x512 (ix2 (0 : Fin 1) j)
      = ∑ k : Fin 128, x (ix2 k j) := by
  refine (shapeCast_a_1a_apply _ shapeCasts_S512_S1x512 (0 : Fin 1) j).trans ?_
  refine (Ideal.multiReduction_add_single x 0x00000000#32 reduces_S128x512_S512 hφ hacc (ix1 j)).trans ?_
  refine Finset.sum_congr rfl fun k _ => congrArg x (funext fun a => Fin.ext ?_)
  match a with
  | ⟨0, _⟩ => rfl
  | ⟨1, _⟩ => rfl

/-- The gate: the logistic of the attention accumulator plus the attention-bias row. -/
theorem pay6_apply (v59 : Vec Ideal S128x512 .f32) (v60 : Vec Ideal S1x512 .f32) (r : Fin 128) (j : Fin 512) :
    k0_pay6 (F := Ideal) v59 v60 (ix2 r j) = Ideal.logistic (v59 (ix2 r j) + v60 (ix2 (0 : Fin 1) j)) := by
  unfold k0_pay6
  show Ideal.logistic (v59 (ix2 r j) + broadcastTo S128x512 (shapeCast S1x512 v60 shapeCasts_S1x512_S1x512)
    broadcasts_S1x512_S128x512 (ix2 r j)) = _
  rw [row_bcast]

/-- The pointwise transcendental operations of a block, at an entry. -/
theorem tanh_at (v : FVec Ideal S128x512 .f32) (i : S128x512.Idx) : tanh v i = Ideal.tanh (v i) := rfl
theorem rsqrt_at (v : FVec Ideal S1x512 .f32) (i : S1x512.Idx) : rsqrt v i = Ideal.rsqrt (v i) := rfl

/-- The outcome entry: the batch-normalised, scaled, shifted and squashed pre-activation of column j at row r,
    times the gate. -/
theorem pay7_apply (v27 : Vec Ideal S128x512 .f32) (v28 v50 v54 : Vec Ideal S1x512 .f32) (v59 : Vec Ideal S128x512 .f32)
    (v60 : Vec Ideal S1x512 .f32) (r : Fin 128) (j : Fin 512) :
    k0_pay7 (F := Ideal) v27 v28 v50 v54 v59 v60 (ix2 r j)
      = cnorm (fun k => v27 (ix2 k j) + v28 (ix2 (0 : Fin 1) j)) (v50 (ix2 (0 : Fin 1) j)) (v54 (ix2 (0 : Fin 1) j)) r
        * Ideal.logistic (v59 (ix2 r j) + v60 (ix2 (0 : Fin 1) j)) := by
  unfold k0_pay7
  dsimp only
  simp only [mulf_apply, addf_apply, subf_apply, divf_apply, broadcast_apply, tanh_at, rsqrt_at, row_bcast, row_bcast',
    col_sum _ (.inl rfl) rfl, pay6_apply, shapeCast_self]
  rfl

end Cert.KernelIdeal.Payload

end
-- ==== Proof.KBlocks.lean ====
import proofs.«140831_j4827543241281_2_alg».proof.Proof.Gen.KernelIdeal.Frame
import proofs.«140831_j4827543241281_2_alg».proof.Proof.KPieces
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

/-!
  What the blocks of a grid step hold, in terms of the argument arrays.

  Step t of the 80 works on column tile t / 10 and reduction tile t % 10. The three weight windows hold rows
  2000 (t % 10) + k and columns 512 (t / 10) + j of their matrices; the four parameter windows hold columns
  512 (t / 10) + j of their vectors (reshaped to one row before the launch); the inputs are staged whole, transposed
  before the launch, and the step loads rows 2000 (t % 10) + k of the transpose, that is, columns of the inputs.
-/

set_option maxRecDepth 16384

noncomputable section

open Idealize.ShloMosaic Idealize.ShloMosaic.TcCoe Idealize.SL.Sem

namespace Cert.KernelIdeal.Blocks

open Cert.KernelIdeal Cert.KernelIdeal.Gen Cert.KernelIdeal.Pieces Idealize.ShloMosaic.ValueIdx
open Idealize.ShloMosaic.StableHlo

variable (m : (ℓ : Loc nD τ sig) → Buf (Elt Ideal) ℓ)

/-! ### The arrays the launch finds: the transposed inputs and the four parameter vectors as rows -/

theorem V_v0 (c : Dev nD) :
    (V m c main_v0 : (⟨S20000x128, .f32⟩ : BufTy).Contents (Elt Ideal))
      = transpose S20000x128 [1, 0] (m ((c : Thread nD τ).loc main_arg0)) transposes_S128x20000_S20000x128_1_0 := by
  show StableHlo.after hostOps0 (fun b => m (c, b)) (Proc.devRef .tc main_v0) = _
  after_results

theorem V_v1 (c : Dev nD) :
    (V m c main_v1 : (⟨S1x4096, .f32⟩ : BufTy).Contents (Elt Ideal))
      = shapeCast S1x4096 (m ((c : Thread nD τ).loc main_arg3)) shapeCasts_S4096_S1x4096 := by
  show StableHlo.after hostOps0 (fun b => m (c, b)) (Proc.devRef .tc main_v1) = _
  after_results
  rfl

theorem V_v2 (c : Dev nD) :
    (V m c main_v2 : (⟨S1x4096, .f32⟩ : BufTy).Contents (Elt Ideal))
      = shapeCast S1x4096 (m ((c : Thread nD τ).loc main_arg5)) shapeCasts_S4096_S1x4096 := by
  show StableHlo.after hostOps0 (fun b => m (c, b)) (Proc.devRef .tc main_v2) = _
  after_results
  rfl

theorem V_v3 (c : Dev nD) :
    (V m c main_v3 : (⟨S1x4096, .f32⟩ : BufTy).Contents (Elt Ideal))
      = shapeCast S1x4096 (m ((c : Thread nD τ).loc main_arg6)) shapeCasts_S4096_S1x4096 := by
  show StableHlo.after hostOps0 (fun b => m (c, b)) (Proc.devRef .tc main_v3) = _
  after_results
  rfl

theorem V_v4 (c : Dev nD) :
    (V m c main_v4 : (⟨S1x4096, .f32⟩ : BufTy).Contents (Elt Ideal))
      = shapeCast S1x4096 (m ((c : Thread nD τ).loc main_arg7)) shapeCasts_S4096_S1x4096 := by
  show StableHlo.after hostOps0 (fun b => m (c, b)) (Proc.devRef .tc main_v4) = _
  after_results
  rfl

/-! ### The block index maps, decided over the 80 steps -/

theorem idx_w : ∀ t : Fin cfg0.N,
    (win0_1.index t 0 = t.val % 10 ∧ win0_1.index t 1 = t.val / 10)
    ∧ (win0_2.index t 0 = t.val % 10 ∧ win0_2.index t 1 = t.val / 10)
    ∧ (win0_3.index t 0 = t.val % 10 ∧ win0_3.index t 1 = t.val / 10) :=
  (by decide +kernel : ∀ t : Fin grid0.N, _)

theorem idx_v : ∀ t : Fin cfg0.N,
    (win0_4.index t 0 = 0 ∧ win0_4.index t 1 = t.val / 10) ∧ (win0_5.index t 0 = 0 ∧ win0_5.index t 1 = t.val / 10)
    ∧ (win0_6.index t 0 = 0 ∧ win0_6.index t 1 = t.val / 10) ∧ (win0_7.index t 0 = 0 ∧ win0_7.index t 1 = t.val / 10) :=
  (by decide +kernel : ∀ t : Fin grid0.N, _)

theorem idx_x : ∀ t : Fin cfg0.N, (win0_0.index t 0 = 0 ∧ win0_0.index t 1 = 0)
    ∧ (k0_off1 (grid0.coords t) 0 = 2000 * (t.val % 10) ∧ k0_off1 (grid0.coords t) 1 = 0) :=
  (by decide +kernel : ∀ t : Fin grid0.N, _)

/-! ### The weight blocks -/

theorem blk1 (c : Dev nD) (t : Fin cfg0.N) (k : Fin 2000) (j : Fin 512) :
    iblk m c 1 t (ix2 k j) = m ((c : Thread nD τ).loc main_arg1) (ix2 ⟨2000 * (t.val % 10) + k.val, by have := k.isLt; omega⟩ ⟨512 * (t.val / 10) + j.val, by have := j.isLt; have := t.isLt; have hN : cfg0.N = 80 := N_0; omega⟩) := by
  unfold iblk
  rw [View.read_apply]
  show V m c main_arg1 (((cfg0.win 1).blk t).view.emb (ix2 k j)) = _
  refine (congrFun (V_main_arg1 m c) _).trans (congrArg (m ((c : Thread nD τ).loc main_arg1)) (funext fun a => Fin.ext ?_))
  have hi := (idx_w t).1
  match a with
  | ⟨0, _⟩ => show win0_1.index t 0 * 2000 + 1 * k.val = 2000 * (t.val % 10) + k.val; rw [hi.1]; omega
  | ⟨1, _⟩ => show win0_1.index t 1 * 512 + 1 * j.val = 512 * (t.val / 10) + j.val; rw [hi.2]; omega

theorem blk2 (c : Dev nD) (t : Fin cfg0.N) (k : Fin 2000) (j : Fin 512) :
    iblk m c 2 t (ix2 k j) = m ((c : Thread nD τ).loc main_arg2) (ix2 ⟨2000 * (t.val % 10) + k.val, by have := k.isLt; omega⟩ ⟨512 * (t.val / 10) + j.val, by have := j.isLt; have := t.isLt; have hN : cfg0.N = 80 := N_0; omega⟩) := by
  unfold iblk
  rw [View.read_apply]
  show V m c main_arg2 (((cfg0.win 2).blk t).view.emb (ix2 k j)) = _
  refine (congrFun (V_main_arg2 m c) _).trans (congrArg (m ((c : Thread nD τ).loc main_arg2)) (funext fun a => Fin.ext ?_))
  have hi := (idx_w t).2.1
  match a with
  | ⟨0, _⟩ => show win0_2.index t 0 * 2000 + 1 * k.val = 2000 * (t.val % 10) + k.val; rw [hi.1]; omega
  | ⟨1, _⟩ => show win0_2.index t 1 * 512 + 1 * j.val = 512 * (t.val / 10) + j.val; rw [hi.2]; omega

theorem blk3 (c : Dev nD) (t : Fin cfg0.N) (k : Fin 2000) (j : Fin 512) :
    iblk m c 3 t (ix2 k j) = m ((c : Thread nD τ).loc main_arg4) (ix2 ⟨2000 * (t.val % 10) + k.val, by have := k.isLt; omega⟩ ⟨512 * (t.val / 10) + j.val, by have := j.isLt; have := t.isLt; have hN : cfg0.N = 80 := N_0; omega⟩) := by
  unfold iblk
  rw [View.read_apply]
  show V m c main_arg4 (((cfg0.win 3).blk t).view.emb (ix2 k j)) = _
  refine (congrFun (V_main_arg4 m c) _).trans (congrArg (m ((c : Thread nD τ).loc main_arg4)) (funext fun a => Fin.ext ?_))
  have hi := (idx_w t).2.2
  match a with
  | ⟨0, _⟩ => show win0_3.index t 0 * 2000 + 1 * k.val = 2000 * (t.val % 10) + k.val; rw [hi.1]; omega
  | ⟨1, _⟩ => show win0_3.index t 1 * 512 + 1 * j.val = 512 * (t.val / 10) + j.val; rw [hi.2]; omega

/-! ### The parameter rows -/

/-- A length-4096 vector reshaped to one row, read through a [1, 512] window at column tile t / 10. -/
theorem row_at (x : (⟨S4096, .f32⟩ : BufTy).Contents (Elt Ideal)) (p : Fin 4096) (i : S1x4096.Idx)
    (h0 : (i 0).val = 0) (h1 : (i 1).val = p.val) :
    shapeCast S1x4096 x shapeCasts_S4096_S1x4096 i = x (ix1 p) := by
  have e : i = ix2 (⟨0, Nat.one_pos⟩ : Fin 1) p := funext fun a => Fin.ext (by
    match a with
    | ⟨0, _⟩ => exact h0
    | ⟨1, _⟩ => exact h1)
  rw [e]
  exact shapeCast_a_1a_apply x shapeCasts_S4096_S1x4096 _ p

theorem blk4 (c : Dev nD) (t : Fin cfg0.N) (j : Fin 512) :
    iblk m c 4 t (ix2 (0 : Fin 1) j) = m ((c : Thread nD τ).loc main_arg3) (ix1 ⟨512 * (t.val / 10) + j.val, by have := j.isLt; have := t.isLt; have hN : cfg0.N = 80 := N_0; omega⟩) := by
  unfold iblk
  rw [View.read_apply]
  show V m c main_v1 (((cfg0.win 4).blk t).view.emb (ix2 (0 : Fin 1) j)) = _
  refine (congrFun (V_v1 m c) _).trans (row_at _ _ _ ?_ ?_)
  · show win0_4.index t 0 * 1 + 1 * 0 = 0; rw [(idx_v t).1.1]
  · show win0_4.index t 1 * 512 + 1 * j.val = 512 * (t.val / 10) + j.val; rw [(idx_v t).1.2]; omega

theorem blk5 (c : Dev nD) (t : Fin cfg0.N) (j : Fin 512) :
    iblk m c 5 t (ix2 (0 : Fin 1) j) = m ((c : Thread nD τ).loc main_arg5) (ix1 ⟨512 * (t.val / 10) + j.val, by have := j.isLt; have := t.isLt; have hN : cfg0.N = 80 := N_0; omega⟩) := by
  unfold iblk
  rw [View.read_apply]
  show V m c main_v2 (((cfg0.win 5).blk t).view.emb (ix2 (0 : Fin 1) j)) = _
  refine (congrFun (V_v2 m c) _).trans (row_at _ _ _ ?_ ?_)
  · show win0_5.index t 0 * 1 + 1 * 0 = 0; rw [(idx_v t).2.1.1]
  · show win0_5.index t 1 * 512 + 1 * j.val = 512 * (t.val / 10) + j.val; rw [(idx_v t).2.1.2]; omega

theorem blk6 (c : Dev nD) (t : Fin cfg0.N) (j : Fin 512) :
    iblk m c 6 t (ix2 (0 : Fin 1) j) = m ((c : Thread nD τ).loc main_arg6) (ix1 ⟨512 * (t.val / 10) + j.val, by have := j.isLt; have := t.isLt; have hN : cfg0.N = 80 := N_0; omega⟩) := by
  unfold iblk
  rw [View.read_apply]
  show V m c main_v3 (((cfg0.win 6).blk t).view.emb (ix2 (0 : Fin 1) j)) = _
  refine (congrFun (V_v3 m c) _).trans (row_at _ _ _ ?_ ?_)
  · show win0_6.index t 0 * 1 + 1 * 0 = 0; rw [(idx_v t).2.2.1.1]
  · show win0_6.index t 1 * 512 + 1 * j.val = 512 * (t.val / 10) + j.val; rw [(idx_v t).2.2.1.2]; omega

theorem blk7 (c : Dev nD) (t : Fin cfg0.N) (j : Fin 512) :
    iblk m c 7 t (ix2 (0 : Fin 1) j) = m ((c : Thread nD τ).loc main_arg7) (ix1 ⟨512 * (t.val / 10) + j.val, by have := j.isLt; have := t.isLt; have hN : cfg0.N = 80 := N_0; omega⟩) := by
  unfold iblk
  rw [View.read_apply]
  show V m c main_v4 (((cfg0.win 7).blk t).view.emb (ix2 (0 : Fin 1) j)) = _
  refine (congrFun (V_v4 m c) _).trans (row_at _ _ _ ?_ ?_)
  · show win0_7.index t 0 * 1 + 1 * 0 = 0; rw [(idx_v t).2.2.2.1]
  · show win0_7.index t 1 * 512 + 1 * j.val = 512 * (t.val / 10) + j.val; rw [(idx_v t).2.2.2.2]; omega

/-! ### The rows of the transposed inputs a step loads -/

theorem blk0 (c : Dev nD) (t : Fin cfg0.N) (k : Fin 2000) (r : Fin 128) :
    xtile (grid0.coords t) (iblk m c 0 t) (ix2 k r) = m ((c : Thread nD τ).loc main_arg0) (ix2 r ⟨2000 * (t.val % 10) + k.val, by have := k.isLt; omega⟩) := by
  unfold xtile iblk
  show View.read _ _ _ _ = _
  rw [View.read_apply]
  show V m c main_v0 (((cfg0.win 0).blk t).view.emb ((Rect.unit (s := S20000x128) (k0_off1 (grid0.coords t)) S2000x128.size (k0_off1_inb _)).idx (ix2 k r))) = _
  have e : ((cfg0.win 0).blk t).view.emb ((Rect.unit (s := S20000x128) (k0_off1 (grid0.coords t)) S2000x128.size (k0_off1_inb _)).idx (ix2 k r))
      = ix2 (⟨2000 * (t.val % 10) + k.val, by have := k.isLt; omega⟩ : Fin 20000) r := funext fun a => Fin.ext (by
    have hi := idx_x t
    match a with
    | ⟨0, _⟩ =>
      show win0_0.index t 0 * 20000 + 1 * (k0_off1 (grid0.coords t) 0 + 1 * k.val) = 2000 * (t.val % 10) + k.val
      rw [hi.1.1, hi.2.1]; omega
    | ⟨1, _⟩ =>
      show win0_0.index t 1 * 128 + 1 * (k0_off1 (grid0.coords t) 1 + 1 * r.val) = r.val
      rw [hi.1.2, hi.2.2]; omega)
  rw [e]
  refine (congrFun (V_v0 m c) _).trans ?_
  exact transpose_ix2_apply (m ((c : Thread nD τ).loc main_arg0)) transposes_S128x20000_S20000x128_1_0 _ r

end Cert.KernelIdeal.Blocks

end
-- ==== Proof.LibRangeTiles.lean ====
/-
  Sums taken tile by tile.

  A sequence `f 0, f 1, …` in an additive commutative monoid is laid out in tiles of `B` consecutive places:
  tile `K` holds the places `B * K + j` for `j < B`.  A computation that visits the tiles in order and adds each
  tile's total to a running accumulator holds, after `K` tiles, the sum of the first `B * K` places; one more tile
  adds the `B` places of tile `K` (`sum_range_tile_succ`).  Nothing but associativity and commutativity of `+` is used,
  so the law holds on the extended reals with infinities of both signs present.

  A sequence given only on `Fin N` is extended by zero to all of `ℕ` (`ext0`); its sum over the first `N` places is then
  the plain sum over `Fin N` (`sum_range_ext0`), and inside the range it reads the given value (`ext0_of_lt`).
-/
import Mathlib.Algebra.BigOperators.Group.Finset.Basic
import Mathlib.Algebra.BigOperators.Fin

namespace Cert.Lib.RangeTiles

open Finset

variable {M : Type*} [AddCommMonoid M]

/-- The sum over the first `B * (K + 1)` places is the sum over the first `B * K` places plus the total of tile `K`,
    whose places are `B * K + j` for `j : Fin B`. -/
theorem sum_range_tile_succ (f : ℕ → M) (B K : ℕ) :
    ∑ n ∈ range (B * (K + 1)), f n = ∑ n ∈ range (B * K), f n + ∑ j : Fin B, f (B * K + j.val) := by
  rw [Nat.mul_succ, Finset.sum_range_add]
  congr 1
  exact Finset.sum_range fun x => f (B * K + x)

/-- Before any tile the running sum is empty. -/
theorem sum_range_tile_zero (f : ℕ → M) (B : ℕ) : ∑ n ∈ range (B * 0), f n = 0 := by
  rw [Nat.mul_zero, Finset.sum_range_zero]

/-- A sequence on `Fin N` extended by zero to every natural number. -/
def ext0 (N : ℕ) (g : Fin N → M) (n : ℕ) : M := if h : n < N then g ⟨n, h⟩ else 0

/-- Inside the range the extension reads the given value. -/
theorem ext0_of_lt (N : ℕ) (g : Fin N → M) (n : ℕ) (h : n < N) : ext0 N g n = g ⟨n, h⟩ := dif_pos h

/-- The extension summed over the first `N` places is the sum over `Fin N`. -/
theorem sum_range_ext0 (N : ℕ) (g : Fin N → M) : ∑ n ∈ range N, ext0 N g n = ∑ n : Fin N, g n := by
  rw [Finset.sum_range]
  exact Finset.sum_congr rfl fun n _ => ext0_of_lt N g n.val n.isLt

end Cert.Lib.RangeTiles
-- ==== Proof.KAccum.lean ====
import proofs.«140831_j4827543241281_2_alg».proof.Proof.KSteps
import proofs.«140831_j4827543241281_2_alg».proof.Proof.KPayload
import proofs.«140831_j4827543241281_2_alg».proof.Proof.KBlocks
import proofs.«140831_j4827543241281_2_alg».proof.Proof.LibRangeTiles
import proofs.«140831_j4827543241281_2_alg».proof.Proof.Spec

/-!
  The accumulators hold running sums.

  Fix a batch row r and a column p = 512 (t / 10) + j of the column tile step t works on. The contraction over the
  20000 genes is visited in ten tiles of 2000: after the step at reduction tile g the pre-activation accumulator
  holds, at (r, j), the sum of the first 2000 (g + 1) terms x (r, q) · (kernel (q, p) · map (q, p)), and the attention
  accumulator the same with the attention weights. A first step starts from the zero block; every later step adds
  its tile to what the step before left, which belongs to the same column tile. Only associativity and commutativity
  of + enter, so nothing is assumed finite.
-/

set_option maxRecDepth 16384

noncomputable section

open Idealize.ShloMosaic Idealize.ShloMosaic.TcCoe Idealize.SL.Sem

namespace Cert.KernelIdeal.Accum

open Cert.KernelIdeal Cert.KernelIdeal.Gen Cert.KernelIdeal.Pieces Cert.KernelIdeal.Steps Cert.KernelIdeal.Payload
open Cert.KernelIdeal.Blocks Idealize.ShloMosaic.ValueIdx Cert.Spec Cert.Lib.RangeTiles
open scoped BigOperators

variable (m : (ℓ : Loc nD τ sig) → Buf (Elt Ideal) ℓ) (c : Dev nD)

/-! ### The argument arrays -/

abbrev aX : SX.Idx → EReal := m ((c : Thread nD τ).loc main_arg0)
abbrev aM : SW.Idx → EReal := m ((c : Thread nD τ).loc main_arg1)
abbrev aK : SW.Idx → EReal := m ((c : Thread nD τ).loc main_arg2)
abbrev aB : SV.Idx → EReal := m ((c : Thread nD τ).loc main_arg3)
abbrev aA : SW.Idx → EReal := m ((c : Thread nD τ).loc main_arg4)
abbrev aAB : SV.Idx → EReal := m ((c : Thread nD τ).loc main_arg5)
abbrev aG : SV.Idx → EReal := m ((c : Thread nD τ).loc main_arg6)
abbrev aBe : SV.Idx → EReal := m ((c : Thread nD τ).loc main_arg7)

/-- The column of the matrices that entry j of step n's blocks belongs to. -/
def col (n : ℕ) (h : n < cfg0.N) (j : Fin 512) : Fin 4096 :=
  ⟨512 * (n / 10) + j.val, by have := j.isLt; have hN : cfg0.N = 80 := N_0; omega⟩

/-- The terms of the two contractions of row r with column p. -/
def hterm (r : Fin 128) (p : Fin 4096) : Fin 20000 → EReal :=
  fun g => aX m c (ix2 r g) * masked (aM m c) (aK m c) (ix2 g p)
def aterm (r : Fin 128) (p : Fin 4096) : Fin 20000 → EReal :=
  fun g => aX m c (ix2 r g) * aA m c (ix2 g p)

/-- The zero block is zero. -/
theorem zero_h (r : Fin 128) (j : Fin 512) : (k0_pay1 (F := Ideal)) (ix2 r j) = 0 := by
  unfold k0_pay1
  simp only [shapeCast_self]
  exact Ideal.ofBits_zero_f32
theorem zero_a (r : Fin 128) (j : Fin 512) : (k0_pay2 (F := Ideal)) (ix2 r j) = 0 := by
  unfold k0_pay2
  simp only [shapeCast_self]
  exact Ideal.ofBits_zero_f32

/-- One step adds tile t % 10 of the contraction to the pre-activation accumulator. -/
theorem htile (t : Fin cfg0.N) (a : Vec Ideal S128x512 .f32) (r : Fin 128) (j : Fin 512) :
    hstep m c t a (ix2 r j)
      = a (ix2 r j) + ∑ k : Fin 2000, ext0 20000 (hterm m c r (col t.val t.isLt j)) (2000 * (t.val % 10) + k.val) := by
  refine (pay4_apply (xt m c t) (iblk m c 2 t) (iblk m c 1 t) a r j).trans
    (congrArg (a (ix2 r j) + ·) (Finset.sum_congr rfl fun k _ => ?_))
  rw [ext0_of_lt 20000 _ _ (by have := k.isLt; omega)]
  dsimp only [xt]
  rw [blk0, blk2, blk1]
  rfl

/-- … and to the attention accumulator. -/
theorem atile (t : Fin cfg0.N) (b : Vec Ideal S128x512 .f32) (r : Fin 128) (j : Fin 512) :
    astep m c t b (ix2 r j)
      = b (ix2 r j) + ∑ k : Fin 2000, ext0 20000 (aterm m c r (col t.val t.isLt j)) (2000 * (t.val % 10) + k.val) := by
  refine (pay5_apply (xt m c t) (iblk m c 3 t) b r j).trans
    (congrArg (b (ix2 r j) + ·) (Finset.sum_congr rfl fun k _ => ?_))
  rw [ext0_of_lt 20000 _ _ (by have := k.isLt; omega)]
  dsimp only [xt]
  rw [blk0, blk3]
  rfl

/-- Every step but a first one continues the accumulators of the step before. -/
theorem step_next (t : Fin cfg0.N) (h0 : ¬t.val % 10 = 0) :
    (outsAt0 m c t.val t.isLt).2.2.1
        = hstep m c t (outsAt0 m c (t.val - 1) (Nat.lt_of_le_of_lt (Nat.sub_le _ _) t.isLt)).2.2.1
    ∧ (outsAt0 m c t.val t.isLt).2.2.2
        = astep m c t (outsAt0 m c (t.val - 1) (Nat.lt_of_le_of_lt (Nat.sub_le _ _) t.isLt)).2.2.2 := by
  by_cases h1 : t.val % 10 = 9
  · exact ⟨(step_C m c t h0 h1).1, (step_C m c t h0 h1).2.1⟩
  · exact step_B m c t h0 h1

/-- After step n both accumulators hold the running sums over the first 2000 (n % 10 + 1) contraction indices. -/
theorem acc_inv : ∀ (n : ℕ) (h : n < cfg0.N) (r : Fin 128) (j : Fin 512),
    (outsAt0 m c n h).2.2.1 (ix2 r j)
        = ∑ q ∈ Finset.range (2000 * (n % 10 + 1)), ext0 20000 (hterm m c r (col n h j)) q
    ∧ (outsAt0 m c n h).2.2.2 (ix2 r j)
        = ∑ q ∈ Finset.range (2000 * (n % 10 + 1)), ext0 20000 (aterm m c r (col n h j)) q
  | n, h, r, j => by
    have hN : cfg0.N = 80 := N_0
    by_cases h0 : n % 10 = 0
    · have h1 : ¬n % 10 = 9 := by omega
      have key := step_A m c ⟨n, h⟩ h0 h1
      have eh : (outsAt0 m c n h).2.2.1 = hstep m c ⟨n, h⟩ (k0_pay1 (F := Ideal)) := key.1
      have ea : (outsAt0 m c n h).2.2.2 = astep m c ⟨n, h⟩ (k0_pay2 (F := Ideal)) := key.2
      constructor
      · rw [eh, htile, zero_h, sum_range_tile_succ]
        show _ = ∑ q ∈ Finset.range (2000 * (n % 10)), _ + _
        rw [h0, sum_range_tile_zero]
      · rw [ea, atile, zero_a, sum_range_tile_succ]
        show _ = ∑ q ∈ Finset.range (2000 * (n % 10)), _ + _
        rw [h0, sum_range_tile_zero]
    · have hp : n - 1 < cfg0.N := Nat.lt_of_le_of_lt (Nat.sub_le _ _) h
      have key := step_next m c ⟨n, h⟩ h0
      have eh : (outsAt0 m c n h).2.2.1 = hstep m c ⟨n, h⟩ (outsAt0 m c (n - 1) hp).2.2.1 := key.1
      have ea : (outsAt0 m c n h).2.2.2 = astep m c ⟨n, h⟩ (outsAt0 m c (n - 1) hp).2.2.2 := key.2
      have ih := acc_inv (n - 1) hp r j
      have hg : (n - 1) % 10 + 1 = n % 10 := by omega
      have hc : col (n - 1) hp j = col n h j := Fin.ext (by
        show 512 * ((n - 1) / 10) + j.val = 512 * (n / 10) + j.val
        have : (n - 1) / 10 = n / 10 := by omega
        rw [this])
      constructor
      · rw [eh, htile, ih.1, hc, hg, sum_range_tile_succ]
      · rw [ea, atile, ih.2, hc, hg, sum_range_tile_succ]
  termination_by n => n
  decreasing_by omega

end Cert.KernelIdeal.Accum

end
-- ==== Proof.KFinal.lean ====
import proofs.«140831_j4827543241281_2_alg».proof.Proof.KAccum

/-!
  The two matrix results after the launch.

  The outputs are written back only at a last reduction step (t % 10 = 9). By then the accumulators hold the whole
  contractions over the 20000 genes, so the outcome block of column tile t / 10 is, entry by entry, the specified
  `outcome` at column 512 (t / 10) + j and the gate block the specified `gate`. The eight flushing steps' blocks
  tile the [128, 4096] arrays: column p is written by the last step of column tile p / 512.
-/

set_option maxRecDepth 65536

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Pieces Cert.KernelIdeal.Steps Cert.KernelIdeal.Payload
open Cert.KernelIdeal.Blocks Cert.KernelIdeal.Accum Idealize.ShloMosaic.ValueIdx Cert.Spec Cert.Lib.RangeTiles
open scoped BigOperators

variable (m : (ℓ : Loc nD τ sig) → Buf (Elt Ideal) ℓ) (c : Dev nD)

/-- The specified outcome and gate matrices of the argument arrays, as contents of the two result arrays. -/
def OUTarr : Buf (Elt Ideal) ((c : Thread nD τ).loc main_v5_0) := OUT (aX m c) (aM m c) (aK m c) (aA m c) (aB m c) (aAB m c) (aG m c) (aBe m c)
def ATTarr : Buf (Elt Ideal) ((c : Thread nD τ).loc main_v5_1) := ATT (aX m c) (aA m c) (aAB m c)

/-- At a last step the accumulators hold the whole contractions. -/
theorem h_full (t : Fin cfg0.N) (h9 : t.val % 10 = 9) (r : Fin 128) (j : Fin 512) :
    (outsAt0 m c t.val t.isLt).2.2.1 (ix2 r j) = dot (aX m c) (masked (aM m c) (aK m c)) r (col t.val t.isLt j) := by
  rw [(acc_inv m c t.val t.isLt r j).1, h9]
  exact sum_range_ext0 20000 (hterm m c r (col t.val t.isLt j))

theorem a_full (t : Fin cfg0.N) (h9 : t.val % 10 = 9) (r : Fin 128) (j : Fin 512) :
    (outsAt0 m c t.val t.isLt).2.2.2 (ix2 r j) = dot (aX m c) (aA m c) r (col t.val t.isLt j) := by
  rw [(acc_inv m c t.val t.isLt r j).2, h9]
  exact sum_range_ext0 20000 (aterm m c r (col t.val t.isLt j))

/-- The gate block written at a last step. -/
theorem att_entry (t : Fin cfg0.N) (h9 : t.val % 10 = 9) (r : Fin 128) (j : Fin 512) :
    (outsAt0 m c t.val t.isLt).2.1 (ix2 r j) = gate (aX m c) (aA m c) (aAB m c) r (col t.val t.isLt j) := by
  have h0 : ¬t.val % 10 = 0 := by omega
  obtain ⟨e1, e2, e3, e4⟩ := step_C m c t h0 h9
  refine (congrFun e4 _).trans ?_
  rw [← e2]
  refine (pay6_apply (outsAt0 m c t.val t.isLt).2.2.2 (iblk m c 5 t) r j).trans ?_
  rw [a_full m c t h9, blk5]
  rfl

/-- The outcome block written at a last step. -/
theorem out_entry (t : Fin cfg0.N) (h9 : t.val % 10 = 9) (r : Fin 128) (j : Fin 512) :
    (outsAt0 m c t.val t.isLt).1 (ix2 r j) = outcome (aX m c) (aM m c) (aK m c) (aA m c) (aB m c) (aAB m c) (aG m c) (aBe m c) r (col t.val t.isLt j) := by
  have h0 : ¬t.val % 10 = 0 := by omega
  obtain ⟨e1, e2, e3, e4⟩ := step_C m c t h0 h9
  refine (congrFun e3 _).trans ?_
  rw [← e1, ← e2]
  refine (pay7_apply (outsAt0 m c t.val t.isLt).2.2.1 (iblk m c 4 t) (iblk m c 6 t) (iblk m c 7 t)
    (outsAt0 m c t.val t.isLt).2.2.2 (iblk m c 5 t) r j).trans ?_
  simp only [h_full m c t h9, a_full m c t h9, blk4, blk5, blk6, blk7]
  rfl

/-! ### The output windows' index maps and block extents, decided over the 80 steps -/

theorem idx_o : ∀ t : Fin cfg0.N, (win0_8.index t 0 = 0 ∧ win0_8.index t 1 = t.val / 10)
    ∧ (win0_9.index t 0 = 0 ∧ win0_9.index t 1 = t.val / 10) :=
  (by decide +kernel : ∀ t : Fin grid0.N, _)

theorem xsz_o : ∀ t : Fin cfg0.N,
    (win0_8.xsize (grid0.coords t) 0 = 128 ∧ win0_8.xsize (grid0.coords t) 1 = 512)
    ∧ (win0_9.xsize (grid0.coords t) 0 = 128 ∧ win0_9.xsize (grid0.coords t) 1 = 512) :=
  (by decide +kernel : ∀ t : Fin grid0.N, _)

/-! ### What is written back, and that the written blocks tile the arrays -/

theorem flushed8 (t : Fin cfg0.N) (hf : (cfg0.win 8).flush t = true) :
    (dats m 0 c).flushed 8 t = ((cfg0.win 8).blk t).view.read (Elt Ideal) (OUTarr m c) := by
  have h9 : t.val % 10 = 9 := (flush0_8 t).mp hf
  show (cfg0.win 8).cut (grid0.coords t) ((dats m 0 c).after 8 t) = _
  rw [after0_8]
  refine funext fun (y : S128x512.Idx) => ?_
  obtain ⟨r, j, rfl⟩ : ∃ (r : Fin 128) (j : Fin 512), y = ix2 r j := ⟨y 0, y 1, eq_ix2 y⟩
  rw [View.read_apply]
  show (outsAt0 m c t.val t.isLt).1 (ix2 r j) = OUTarr m c (((cfg0.win 8).blk t).view.emb (ix2 r j))
  have e : ((cfg0.win 8).blk t).view.emb (ix2 r j) = ix2 r (col t.val t.isLt j) := funext fun a => Fin.ext (by
    have hi := (idx_o t).1
    match a with
    | ⟨0, _⟩ => show win0_8.index t 0 * 128 + 1 * r.val = r.val; rw [hi.1]; omega
    | ⟨1, _⟩ => show win0_8.index t 1 * 512 + 1 * j.val = 512 * (t.val / 10) + j.val; rw [hi.2]; omega)
  rw [e, out_entry m c t h9 r j]
  rfl

theorem cover8 (i : ((cfg0.win 8).arr.view.loc (c.tc : Thread nD τ)).2.ty.Idx) :
    ∃ t : Fin cfg0.N, (cfg0.win 8).flush t = true ∧ i ∈ ((cfg0.win 8).blk t).view.set := by
  have hN : cfg0.N = 80 := N_0
  have h0 : (i 0 : Nat) < 128 := (i 0).isLt
  have h1 : (i 1 : Nat) < 4096 := (i 1).isLt
  obtain ⟨t, ht⟩ : ∃ t : Fin cfg0.N, t.val = 10 * ((i 1 : Nat) / 512) + 9 := ⟨⟨_, by omega⟩, rfl⟩
  refine ⟨t, (flush0_8 t).mpr (by omega), ?_⟩
  show i ∈ ((View.whole main_v5_0).slice (win0_8.rect t)).set
  rw [View.set_slice_whole, Rect.mem_set_unit]
  intro a
  have hi := (idx_o t).1
  have hx := (xsz_o t).1
  match a with
  | ⟨0, _⟩ =>
    show win0_8.index t 0 * 128 ≤ (i 0 : Nat) ∧ (i 0 : Nat) < win0_8.index t 0 * 128 + win0_8.xsize (grid0.coords t) 0
    rw [hi.1, hx.1]; omega
  | ⟨1, _⟩ =>
    show win0_8.index t 1 * 512 ≤ (i 1 : Nat) ∧ (i 1 : Nat) < win0_8.index t 1 * 512 + win0_8.xsize (grid0.coords t) 1
    rw [hi.2, hx.2]; omega

theorem flushed9 (t : Fin cfg0.N) (hf : (cfg0.win 9).flush t = true) :
    (dats m 0 c).flushed 9 t = ((cfg0.win 9).blk t).view.read (Elt Ideal) (ATTarr m c) := by
  have h9 : t.val % 10 = 9 := (flush0_9 t).mp hf
  show (cfg0.win 9).cut (grid0.coords t) ((dats m 0 c).after 9 t) = _
  rw [after0_9]
  refine funext fun (y : S128x512.Idx) => ?_
  obtain ⟨r, j, rfl⟩ : ∃ (r : Fin 128) (j : Fin 512), y = ix2 r j := ⟨y 0, y 1, eq_ix2 y⟩
  rw [View.read_apply]
  show (outsAt0 m c t.val t.isLt).2.1 (ix2 r j) = ATTarr m c (((cfg0.win 9).blk t).view.emb (ix2 r j))
  have e : ((cfg0.win 9).blk t).view.emb (ix2 r j) = ix2 r (col t.val t.isLt j) := funext fun a => Fin.ext (by
    have hi := (idx_o t).2
    match a with
    | ⟨0, _⟩ => show win0_9.index t 0 * 128 + 1 * r.val = r.val; rw [hi.1]; omega
    | ⟨1, _⟩ => show win0_9.index t 1 * 512 + 1 * j.val = 512 * (t.val / 10) + j.val; rw [hi.2]; omega)
  rw [e, att_entry m c t h9 r j]
  rfl

theorem cover9 (i : ((cfg0.win 9).arr.view.loc (c.tc : Thread nD τ)).2.ty.Idx) :
    ∃ t : Fin cfg0.N, (cfg0.win 9).flush t = true ∧ i ∈ ((cfg0.win 9).blk t).view.set := by
  have hN : cfg0.N = 80 := N_0
  have h0 : (i 0 : Nat) < 128 := (i 0).isLt
  have h1 : (i 1 : Nat) < 4096 := (i 1).isLt
  obtain ⟨t, ht⟩ : ∃ t : Fin cfg0.N, t.val = 10 * ((i 1 : Nat) / 512) + 9 := ⟨⟨_, by omega⟩, rfl⟩
  refine ⟨t, (flush0_9 t).mpr (by omega), ?_⟩
  show i ∈ ((View.whole main_v5_1).slice (win0_9.rect t)).set
  rw [View.set_slice_whole, Rect.mem_set_unit]
  intro a
  have hi := (idx_o t).2
  have hx := (xsz_o t).2
  match a with
  | ⟨0, _⟩ =>
    show win0_9.index t 0 * 128 ≤ (i 0 : Nat) ∧ (i 0 : Nat) < win0_9.index t 0 * 128 + win0_9.xsize (grid0.coords t) 0
    rw [hi.1, hx.1]; omega
  | ⟨1, _⟩ =>
    show win0_9.index t 1 * 512 ≤ (i 1 : Nat) ∧ (i 1 : Nat) < win0_9.index t 1 * 512 + win0_9.xsize (grid0.coords t) 1
    rw [hi.2, hx.2]; omega

/-- The outcome array and the gate array after the launch. -/
theorem final8 : (dats m 0 c).arrAt 8 cfg0.N = OUTarr m c :=
  (dats m 0 c).arrAt_eq_of_cover 8 (OUTarr m c) (flushed8 m c) (cover8 c)

theorem final9 : (dats m 0 c).arrAt 9 cfg0.N = ATTarr m c :=
  (dats m 0 c).arrAt_eq_of_cover 9 (ATTarr m c) (flushed9 m c) (cover9 c)

end Cert.KernelIdeal.Final

end
-- ==== Proof.KRun.lean ====
import proofs.«140831_j4827543241281_2_alg».proof.Proof.KFinal
import Idealize.ShloMosaic.Lib.StableHlo.Run

/-!
  The kernel program's run, with its three results named.

  After the launch the two matrix results are the specified outcome and gate matrices. The third result is computed
  after the launch from the outcome matrix: its product with the decision weights, plus the decision bias broadcast
  over the batch (`head`); the reference ends with the same operations on its own outcome matrix.
-/

set_option maxRecDepth 65536

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Final Cert.KernelIdeal.Accum Idealize.ShloMosaic.StableHlo

variable (m : (ℓ : Loc nD τ sig) → Buf (Elt Ideal) ℓ) (ρ : Dev nD → PrngReg)

/-- The decision head: the outcome matrix against the decision weights, plus the bias over the batch. -/
def head (O : FVec Ideal S128x4096 .f32) (W : FVec Ideal S4096x1 .f32) (d : FVec Ideal S1 .f32) :
    FVec Ideal S128x1 .f32 :=
  addf (F := Ideal) (Host.dotGeneral (F := Ideal) dot_S128x4096_S4096x1_S128x1_1_0_0_1_n_n none O W)
    (broadcastInDim S128x1 ![0, 1] bcast_S1x1_S128x1_0_1 (broadcastInDim S1x1 ![1] bcast_S1_S1x1_1 d))

/-- The operations after the launch compute the decision head of the outcome array the launch left. -/
theorem tail_eq (c : Dev nD) :
    Pipeline.afterTail₀ cfgs (dats m) 0 (V0 m) [hostOps1] c main_v9
      = head (OUTarr m c) (m ((c.tc : Thread nD τ).loc main_arg8)) (m ((c.tc : Thread nD τ).loc main_arg9)) := by
  unfold Pipeline.afterTail₀
  show StableHlo.after hostOps1 _ (Proc.devRef .tc main_v9) = _
  after_results
  have e8 : Pipeline.withArrays (cfgs 0).spec c (V0 m c) (fun w => (dats m 0 c).arrAt w (cfgs 0).N) (Proc.devRef .tc main_v5_0) = OUTarr m c :=
    (Pipeline.withArrays_arr spec0 launch0.win.arr_inj c _ _ 8).trans (final8 m c)
  have ea8 : Pipeline.withArrays (cfgs 0).spec c (V0 m c) (fun w => (dats m 0 c).arrAt w (cfgs 0).N) (Proc.devRef .tc main_arg8) = m ((c.tc : Thread nD τ).loc main_arg8) :=
    (Pipeline.withArrays_of_ne _ c (V0 m c) _ main_arg8 (by exact (by decide : ∀ w, Pipeline.arrRef spec0 w ≠ main_arg8))).trans
      (V_main_arg8 m c)
  have ea9 : Pipeline.withArrays (cfgs 0).spec c (V0 m c) (fun w => (dats m 0 c).arrAt w (cfgs 0).N) (Proc.devRef .tc main_arg9) = m ((c.tc : Thread nD τ).loc main_arg9) :=
    (Pipeline.withArrays_of_ne _ c (V0 m c) _ main_arg9 (by exact (by decide : ∀ w, Pipeline.arrRef spec0 w ≠ main_arg9))).trans
      (V_main_arg9 m c)
  rw [e8, ea8, ea9]
  rfl

/-- Every weakly fair execution of the kernel program ends with the three results at the specified values and the
    arguments unchanged. -/
theorem run : θ_run defs (onTc (τ := τ) (main (F := Ideal))) ⟨m, fun _ => 0, ρ⟩ (fun r => ∀ c : Dev nD,
      r.2.mem ((c.tc : Thread nD τ).loc main_v5_0) = OUTarr m c
      ∧ r.2.mem ((c.tc : Thread nD τ).loc main_v9) = head (OUTarr m c) (m ((c.tc : Thread nD τ).loc main_arg8)) (m ((c.tc : Thread nD τ).loc main_arg9))
      ∧ r.2.mem ((c.tc : Thread nD τ).loc main_v5_1) = ATTarr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 8).trans (final8 m c),
      ((h c).2 main_v9 (Pipeline.mem_restRefs_of main_v9 (by decide) (by decide))).trans (tail_eq m c),
      ((h c).1 9).trans (final9 m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.KernelIdeal.RunValue

end
-- ==== Proof.lean ====
/-
  A sparse, batch-normalised, attention-gated layer: the kernel against its reference, over the extended reals.

  Both programs compute, for a batch row r and a pathway p,
    pre r p     = (∑ g, x r g · (kernel g p · map g p)) + bias p,
    outcome r p = tanh ((pre r p − mean p) · rsqrt (var p + ε) · γ p + β p) · logistic ((∑ g, x r g · a g p) + abias p),
  with mean and var the batch statistics of column p of pre, the gate matrix logistic (…), and the decision column
  (∑ p, outcome r p · w p) + d. The kernel visits the 20000 genes in ten tiles of 2000 per column tile and adds each
  tile's product to an accumulator; the reference contracts them in one sum. A sum taken tile by tile is the whole
  sum by associativity and commutativity of + alone, so the two sides agree for every input, infinite ones included,
  and the precondition is never opened. The reference spells the logistic function as 1 / (1 + exp (−x)), which is
  its definition; division by the batch size 128.0 is the same operation on both sides.

  The ideal pass rewrote nothing in the kernel, so the preservation claim is trivial. The three frames are the
  generated frame runs (for the reference, its generated run with the results dropped).
-/
import proofs.«140831_j4827543241281_2_alg».proof.Defs
import proofs.«140831_j4827543241281_2_alg».proof.Proof.Gen.Kernel
import proofs.«140831_j4827543241281_2_alg».proof.Proof.Gen.Kernel.Skeleton
import proofs.«140831_j4827543241281_2_alg».proof.Proof.Gen.Kernel.Launch
import proofs.«140831_j4827543241281_2_alg».proof.Proof.Gen.Kernel.Points
import proofs.«140831_j4827543241281_2_alg».proof.Proof.Gen.Kernel.Frame
import proofs.«140831_j4827543241281_2_alg».proof.Proof.Gen.KernelIdeal
import proofs.«140831_j4827543241281_2_alg».proof.Proof.Gen.KernelIdeal.Skeleton
import proofs.«140831_j4827543241281_2_alg».proof.Proof.Gen.KernelIdeal.Launch
import proofs.«140831_j4827543241281_2_alg».proof.Proof.Gen.KernelIdeal.Points
import proofs.«140831_j4827543241281_2_alg».proof.Proof.Gen.KernelIdeal.Frame
import proofs.«140831_j4827543241281_2_alg».proof.Proof.Gen.ReferenceIdeal
import proofs.«140831_j4827543241281_2_alg».proof.Proof.Gen.ReferenceIdeal.Run
import proofs.«140831_j4827543241281_2_alg».proof.Proof.Gen.ReferenceIdeal.Read
import proofs.«140831_j4827543241281_2_alg».proof.Proof.Gen.Pre_finite_inputs
import proofs.«140831_j4827543241281_2_alg».proof.Proof.RefSide
import proofs.«140831_j4827543241281_2_alg».proof.Proof.KRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- The reference's decision column is the decision head of its outcome matrix. -/
theorem ref_head (x0 : (⟨Cert.ReferenceIdeal.S128x20000, .f32⟩ : BufTy).Contents (Elt Ideal))
    (x1 x2 x4 : (⟨Cert.ReferenceIdeal.S20000x4096, .f32⟩ : BufTy).Contents (Elt Ideal))
    (x3 x5 x6 x7 : (⟨Cert.ReferenceIdeal.S4096, .f32⟩ : BufTy).Contents (Elt Ideal))
    (x8 : (⟨Cert.ReferenceIdeal.S4096x1, .f32⟩ : BufTy).Contents (Elt Ideal))
    (x9 : (⟨Cert.ReferenceIdeal.S1, .f32⟩ : BufTy).Contents (Elt Ideal)) :
    Cert.ReferenceIdeal.Read.val_main_v45 (F := Ideal) x0 x1 x2 x3 x4 x5 x6 x7 x8 x9
      = Cert.KernelIdeal.RunValue.head (Cert.Spec.OUT x0 x1 x2 x4 x3 x5 x6 x7) x8 x9 := by
  unfold Cert.ReferenceIdeal.Read.val_main_v45 Cert.ReferenceIdeal.Read.val_main_v42 Cert.ReferenceIdeal.Read.val_main_v44
    Cert.ReferenceIdeal.Read.val_main_v43
  rw [Cert.ReferenceIdeal.RefSide.ref_OUT]
  rfl

/-- At the ideal values the kernel program ends with the specified outcome matrix, decision column and gate matrix
    of its arguments, and the reference with the same functions of arguments that agree. -/
theorem algebraic : Cert.algebraic_KernelIdeal_ReferenceIdeal := by
  intro m ρ m' ρ' _ hagree
  refine ⟨fun c => Cert.KernelIdeal.Final.OUTarr m c,
    fun c => Cert.KernelIdeal.RunValue.head (Cert.KernelIdeal.Final.OUTarr m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.Final.ATTarr m c, Cert.KernelIdeal.RunValue.run m ρ, ?_⟩
  refine (θ_run Cert.ReferenceIdeal.defs _ _).mono (fun _ h c => ?_) (Cert.ReferenceIdeal.Value.run (F := Ideal) m' ρ')
  obtain ⟨h41, h45, h40, hargs⟩ := h c
  obtain ⟨a0, a1, a2, a3, a4, a5, a6, a7, a8, a9⟩ := hagree c
  refine ⟨h41.trans ?_, h45.trans ?_, h40.trans ?_, hargs⟩
  · rw [Cert.ReferenceIdeal.Read.val_main_v41_eq, Cert.ReferenceIdeal.RefSide.ref_OUT, a0, a1, a2, a3, a4, a5, a6, a7]
    rfl
  · rw [Cert.ReferenceIdeal.Read.val_main_v45_eq, ref_head, a0, a1, a2, a3, a4, a5, a6, a7, a8, a9]
    rfl
  · rw [Cert.ReferenceIdeal.Read.val_main_v40_eq, Cert.ReferenceIdeal.RefSide.ref_ATT, a0, a4, a5]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
